-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S1x64 : Shape := ⟨2, ![1, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S1x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S1x64 : Shape := ⟨2, ![1, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S1376 : Shape := ⟨1, ![1376]⟩
abbrev S3301376 : Shape := ⟨1, ![3301376]⟩
abbrev S3301376x1 : Shape := ⟨2, ![3301376, 1]⟩
abbrev S100001x1 : Shape := ⟨2, ![100001, 1]⟩
abbrev S100000x1 : Shape := ⟨2, ![100000, 1]⟩
abbrev S100000x16 : Shape := ⟨2, ![100000, 16]⟩
abbrev S2000x512 : Shape := ⟨2, ![2000, 512]⟩
abbrev S2000x16 : Shape := ⟨2, ![2000, 16]⟩
abbrev S1x16 : Shape := ⟨2, ![1, 16]⟩
abbrev S100001x16 : Shape := ⟨2, ![100001, 16]⟩
abbrev S1 : Shape := ⟨1, ![1]⟩
abbrev S1x1 : Shape := ⟨2, ![1, 1]⟩
abbrev S3301376x16 : Shape := ⟨2, ![3301376, 16]⟩
abbrev S8192x16 : Shape := ⟨2, ![8192, 16]⟩
abbrev S8192x1 : Shape := ⟨2, ![8192, 1]⟩
abbrev S8192 : Shape := ⟨1, ![8192]⟩
abbrev S100000x64 : Shape := ⟨2, ![100000, 64]⟩
abbrev S100001x64 : Shape := ⟨2, ![100001, 64]⟩
abbrev S3301376x64 : Shape := ⟨2, ![3301376, 64]⟩
abbrev S8192x64 : Shape := ⟨2, ![8192, 64]⟩

abbrev nBuf : Space → Nat
  | .hbm => 183
  | .vmem => 18
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S1x64, .f32⟩
  | 5 => ⟨S64, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S_, .i32⟩
  | 14 => ⟨S1376, .i32⟩
  | 15 => ⟨S3301376, .i32⟩
  | 16 => ⟨S3301376, .i32⟩
  | 17 => ⟨S_, .f32⟩
  | 18 => ⟨S3301376x1, .f32⟩
  | 19 => ⟨S_, .f32⟩
  | 20 => ⟨S100001x1, .f32⟩
  | 21 => ⟨S_, .i32⟩
  | 22 => ⟨S3301376, .i32⟩
  | 23 => ⟨S3301376, .i1⟩
  | 24 => ⟨S_, .i32⟩
  | 25 => ⟨S3301376, .i32⟩
  | 26 => ⟨S3301376, .i32⟩
  | 27 => ⟨S3301376, .i32⟩
  | 28 => ⟨S3301376x1, .i32⟩
  | 29 => ⟨S100001x1, .f32⟩
  | 30 => ⟨S100000x1, .f32⟩
  | 31 => ⟨S_, .f32⟩
  | 32 => ⟨S100000x1, .f32⟩
  | 33 => ⟨S100000x1, .f32⟩
  | 34 => ⟨S100000x16, .f32⟩
  | 35 => ⟨S_, .f32⟩
  | 36 => ⟨S1x16, .f32⟩
  | 37 => ⟨S100001x16, .f32⟩
  | 38 => ⟨S_, .i32⟩
  | 39 => ⟨S3301376, .i32⟩
  | 40 => ⟨S3301376, .i1⟩
  | 41 => ⟨S_, .i32⟩
  | 42 => ⟨S3301376, .i32⟩
  | 43 => ⟨S3301376, .i32⟩
  | 44 => ⟨S3301376, .i32⟩
  | 45 => ⟨S3301376x1, .i32⟩
  | 46 => ⟨S1, .i32⟩
  | 47 => ⟨S_, .i32⟩
  | 48 => ⟨S3301376x1, .i32⟩
  | 49 => ⟨S3301376x1, .i1⟩
  | 50 => ⟨S1x1, .i32⟩
  | 51 => ⟨S3301376x1, .i32⟩
  | 52 => ⟨S3301376x1, .i1⟩
  | 53 => ⟨S3301376x1, .i1⟩
  | 54 => ⟨S_, .i1⟩
  | 55 => ⟨S3301376, .i1⟩
  | 56 => ⟨S3301376x16, .f32⟩
  | 57 => ⟨S3301376x16, .i1⟩
  | 58 => ⟨S_, .f32⟩
  | 59 => ⟨S3301376x16, .f32⟩
  | 60 => ⟨S3301376x16, .f32⟩
  | 61 => ⟨S_, .i32⟩
  | 62 => ⟨S3301376, .i32⟩
  | 63 => ⟨S3301376, .i1⟩
  | 64 => ⟨S_, .i32⟩
  | 65 => ⟨S3301376, .i32⟩
  | 66 => ⟨S3301376, .i32⟩
  | 67 => ⟨S3301376, .i32⟩
  | 68 => ⟨S3301376x1, .i32⟩
  | 69 => ⟨S1, .i32⟩
  | 70 => ⟨S_, .i32⟩
  | 71 => ⟨S3301376x1, .i32⟩
  | 72 => ⟨S3301376x1, .i1⟩
  | 73 => ⟨S1x1, .i32⟩
  | 74 => ⟨S3301376x1, .i32⟩
  | 75 => ⟨S3301376x1, .i1⟩
  | 76 => ⟨S3301376x1, .i1⟩
  | 77 => ⟨S_, .i1⟩
  | 78 => ⟨S3301376, .i1⟩
  | 79 => ⟨S3301376x16, .f32⟩
  | 80 => ⟨S3301376x16, .i1⟩
  | 81 => ⟨S_, .f32⟩
  | 82 => ⟨S3301376x16, .f32⟩
  | 83 => ⟨S3301376x16, .f32⟩
  | 84 => ⟨S3301376x1, .f32⟩
  | 85 => ⟨S_, .f32⟩
  | 86 => ⟨S100001x1, .f32⟩
  | 87 => ⟨S_, .i32⟩
  | 88 => ⟨S3301376, .i32⟩
  | 89 => ⟨S3301376, .i1⟩
  | 90 => ⟨S_, .i32⟩
  | 91 => ⟨S3301376, .i32⟩
  | 92 => ⟨S3301376, .i32⟩
  | 93 => ⟨S3301376, .i32⟩
  | 94 => ⟨S3301376x1, .i32⟩
  | 95 => ⟨S100001x1, .f32⟩
  | 96 => ⟨S100000x1, .f32⟩
  | 97 => ⟨S100000x1, .f32⟩
  | 98 => ⟨S_, .f32⟩
  | 99 => ⟨S100000x1, .f32⟩
  | 100 => ⟨S100000x1, .f32⟩
  | 101 => ⟨S100000x64, .f32⟩
  | 102 => ⟨S100000x64, .f32⟩
  | 103 => ⟨S100000x64, .f32⟩
  | 104 => ⟨S1x64, .f32⟩
  | 105 => ⟨S100000x64, .f32⟩
  | 106 => ⟨S100000x64, .f32⟩
  | 107 => ⟨S_, .f32⟩
  | 108 => ⟨S1x64, .f32⟩
  | 109 => ⟨S100001x64, .f32⟩
  | 110 => ⟨S_, .i32⟩
  | 111 => ⟨S3301376, .i32⟩
  | 112 => ⟨S3301376, .i1⟩
  | 113 => ⟨S_, .i32⟩
  | 114 => ⟨S3301376, .i32⟩
  | 115 => ⟨S3301376, .i32⟩
  | 116 => ⟨S3301376, .i32⟩
  | 117 => ⟨S3301376x1, .i32⟩
  | 118 => ⟨S1, .i32⟩
  | 119 => ⟨S_, .i32⟩
  | 120 => ⟨S3301376x1, .i32⟩
  | 121 => ⟨S3301376x1, .i1⟩
  | 122 => ⟨S1x1, .i32⟩
  | 123 => ⟨S3301376x1, .i32⟩
  | 124 => ⟨S3301376x1, .i1⟩
  | 125 => ⟨S3301376x1, .i1⟩
  | 126 => ⟨S_, .i1⟩
  | 127 => ⟨S3301376, .i1⟩
  | _ => ⟨S100000x512, .f32⟩

abbrev hbmTy0_1 (i : Nat) : BufTy := match i % 128 with
  | 0 => ⟨S3301376x64, .f32⟩
  | 1 => ⟨S3301376x64, .i1⟩
  | 2 => ⟨S_, .f32⟩
  | 3 => ⟨S3301376x64, .f32⟩
  | 4 => ⟨S3301376x64, .f32⟩
  | 5 => ⟨S_, .i32⟩
  | 6 => ⟨S3301376, .i32⟩
  | 7 => ⟨S3301376, .i1⟩
  | 8 => ⟨S_, .i32⟩
  | 9 => ⟨S3301376, .i32⟩
  | 10 => ⟨S3301376, .i32⟩
  | 11 => ⟨S3301376, .i32⟩
  | 12 => ⟨S3301376x1, .i32⟩
  | 13 => ⟨S1, .i32⟩
  | 14 => ⟨S_, .i32⟩
  | 15 => ⟨S3301376x1, .i32⟩
  | 16 => ⟨S3301376x1, .i1⟩
  | 17 => ⟨S1x1, .i32⟩
  | 18 => ⟨S3301376x1, .i32⟩
  | 19 => ⟨S3301376x1, .i1⟩
  | 20 => ⟨S3301376x1, .i1⟩
  | 21 => ⟨S_, .i1⟩
  | 22 => ⟨S3301376, .i1⟩
  | 23 => ⟨S3301376x64, .f32⟩
  | 24 => ⟨S3301376x64, .i1⟩
  | 25 => ⟨S_, .f32⟩
  | 26 => ⟨S3301376x64, .f32⟩
  | 27 => ⟨S3301376x64, .f32⟩
  | 28 => ⟨S3301376x1, .f32⟩
  | 29 => ⟨S_, .f32⟩
  | 30 => ⟨S100001x1, .f32⟩
  | 31 => ⟨S_, .i32⟩
  | 32 => ⟨S3301376, .i32⟩
  | 33 => ⟨S3301376, .i1⟩
  | 34 => ⟨S_, .i32⟩
  | 35 => ⟨S3301376, .i32⟩
  | 36 => ⟨S3301376, .i32⟩
  | 37 => ⟨S3301376, .i32⟩
  | 38 => ⟨S3301376x1, .i32⟩
  | 39 => ⟨S100001x1, .f32⟩
  | 40 => ⟨S100000x1, .f32⟩
  | 41 => ⟨S100000x1, .f32⟩
  | 42 => ⟨S_, .f32⟩
  | 43 => ⟨S100000, .f32⟩
  | 44 => ⟨S_, .f32⟩
  | 45 => ⟨S100000, .f32⟩
  | 46 => ⟨S100000, .f32⟩
  | 47 => ⟨S100000x1, .f32⟩
  | 48 => ⟨S100000x1, .f32⟩
  | 49 => ⟨S100000x1, .f32⟩
  | 50 => ⟨S_, .f32⟩
  | 51 => ⟨S100000, .f32⟩
  | 52 => ⟨S100000x1, .f32⟩
  | 53 => ⟨S100000x1, .f32⟩
  | 54 => ⟨S100000x1, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S16, .f32⟩
  | .local _ .vmem, ⟨4, _⟩ => ⟨S2000x16, .f32⟩
  | .local _ .vmem, ⟨5, _⟩ => ⟨S2000x16, .f32⟩
  | .local _ .vmem, ⟨6, _⟩ => ⟨S8192x16, .f32⟩
  | .local _ .vmem, ⟨7, _⟩ => ⟨S8192x16, .f32⟩
  | .local _ .vmem, ⟨8, _⟩ => ⟨S8192x16, .f32⟩
  | .local _ .vmem, ⟨9, _⟩ => ⟨S8192x16, .f32⟩
  | .local _ .vmem, ⟨10, _⟩ => ⟨S8192x1, .f32⟩
  | .local _ .vmem, ⟨11, _⟩ => ⟨S8192x1, .f32⟩
  | .local _ .vmem, ⟨12, _⟩ => ⟨S8192x64, .f32⟩
  | .local _ .vmem, ⟨13, _⟩ => ⟨S8192x64, .f32⟩
  | .local _ .vmem, ⟨14, _⟩ => ⟨S8192x64, .f32⟩
  | .local _ .vmem, ⟨15, _⟩ => ⟨S8192x64, .f32⟩
  | .local _ .vmem, ⟨16, _⟩ => ⟨S8192x1, .f32⟩
  | .local _ .vmem, ⟨17, _⟩ => ⟨S8192x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_call0_c : Ref sig .tc := ⟨.hbm, 38, rfl⟩
abbrev main_call0_v0 : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_c_1 : Ref sig .tc := ⟨.hbm, 46, rfl⟩
abbrev main_call0_c_2 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_3 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_call0_cst : Ref sig .tc := ⟨.hbm, 58, rfl⟩
abbrev main_call0_v15 : Ref sig .tc := ⟨.hbm, 59, rfl⟩
abbrev main_v25 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_call1_cst : Ref sig .tc := ⟨.hbm, 81, rfl⟩
abbrev main_call1_v15 : Ref sig .tc := ⟨.hbm, 82, rfl⟩
abbrev main_v26 : Ref sig .tc := ⟨.hbm, 83, rfl⟩
abbrev main_v27 : Ref sig .tc := ⟨.hbm, 84, rfl⟩
abbrev main_cst_5 : Ref sig .tc := ⟨.hbm, 85, rfl⟩
abbrev main_v28 : Ref sig .tc := ⟨.hbm, 86, rfl⟩
abbrev main_c_6 : Ref sig .tc := ⟨.hbm, 87, rfl⟩
abbrev main_v29 : Ref sig .tc := ⟨.hbm, 88, rfl⟩
abbrev main_v30 : Ref sig .tc := ⟨.hbm, 89, rfl⟩
abbrev main_c_7 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_call2_cst : Ref sig .tc := ⟨.hbm, 98, rfl⟩
abbrev main_call2_v0 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_cst_8 : Ref sig .tc := ⟨.hbm, 107, rfl⟩
abbrev main_v45 : Ref sig .tc := ⟨.hbm, 108, rfl⟩
abbrev main_v46 : Ref sig .tc := ⟨.hbm, 109, rfl⟩
abbrev main_call3_c : Ref sig .tc := ⟨.hbm, 110, rfl⟩
abbrev main_call3_v0 : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_c_1 : Ref sig .tc := ⟨.hbm, 118, rfl⟩
abbrev main_call3_c_2 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_c_3 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_call3_cst : Ref sig .tc := ⟨.hbm, 130, rfl⟩
abbrev main_call3_v15 : Ref sig .tc := ⟨.hbm, 131, rfl⟩
abbrev main_v47 : Ref sig .tc := ⟨.hbm, 132, rfl⟩
abbrev main_call4_c : Ref sig .tc := ⟨.hbm, 133, rfl⟩
abbrev main_call4_v0 : Ref sig .tc := ⟨.hbm, 134, rfl⟩
abbrev main_call4_v1 : Ref sig .tc := ⟨.hbm, 135, rfl⟩
abbrev main_call4_c_0 : Ref sig .tc := ⟨.hbm, 136, rfl⟩
abbrev main_call4_v2 : Ref sig .tc := ⟨.hbm, 137, rfl⟩
abbrev main_call4_v3 : Ref sig .tc := ⟨.hbm, 138, rfl⟩
abbrev main_call4_v4 : Ref sig .tc := ⟨.hbm, 139, rfl⟩
abbrev main_call4_v5 : Ref sig .tc := ⟨.hbm, 140, rfl⟩
abbrev main_call4_c_1 : Ref sig .tc := ⟨.hbm, 141, rfl⟩
abbrev main_call4_c_2 : Ref sig .tc := ⟨.hbm, 142, rfl⟩
abbrev main_call4_v6 : Ref sig .tc := ⟨.hbm, 143, rfl⟩
abbrev main_call4_v7 : Ref sig .tc := ⟨.hbm, 144, rfl⟩
abbrev main_call4_v8 : Ref sig .tc := ⟨.hbm, 145, rfl⟩
abbrev main_call4_v9 : Ref sig .tc := ⟨.hbm, 146, rfl⟩
abbrev main_call4_v10 : Ref sig .tc := ⟨.hbm, 147, rfl⟩
abbrev main_call4_v11 : Ref sig .tc := ⟨.hbm, 148, rfl⟩
abbrev main_call4_c_3 : Ref sig .tc := ⟨.hbm, 149, rfl⟩
abbrev main_call4_v12 : Ref sig .tc := ⟨.hbm, 150, rfl⟩
abbrev main_call4_v13 : Ref sig .tc := ⟨.hbm, 151, rfl⟩
abbrev main_call4_v14 : Ref sig .tc := ⟨.hbm, 152, rfl⟩
abbrev main_call4_cst : Ref sig .tc := ⟨.hbm, 153, rfl⟩
abbrev main_call4_v15 : Ref sig .tc := ⟨.hbm, 154, rfl⟩
abbrev main_v48 : Ref sig .tc := ⟨.hbm, 155, rfl⟩
abbrev main_v49 : Ref sig .tc := ⟨.hbm, 156, rfl⟩
abbrev main_cst_9 : Ref sig .tc := ⟨.hbm, 157, rfl⟩
abbrev main_v50 : Ref sig .tc := ⟨.hbm, 158, rfl⟩
abbrev main_c_10 : Ref sig .tc := ⟨.hbm, 159, rfl⟩
abbrev main_v51 : Ref sig .tc := ⟨.hbm, 160, rfl⟩
abbrev main_v52 : Ref sig .tc := ⟨.hbm, 161, rfl⟩
abbrev main_c_11 : Ref sig .tc := ⟨.hbm, 162, rfl⟩
abbrev main_v53 : Ref sig .tc := ⟨.hbm, 163, rfl⟩
abbrev main_v54 : Ref sig .tc := ⟨.hbm, 164, rfl⟩
abbrev main_v55 : Ref sig .tc := ⟨.hbm, 165, rfl⟩
abbrev main_v56 : Ref sig .tc := ⟨.hbm, 166, rfl⟩
abbrev main_v57 : Ref sig .tc := ⟨.hbm, 167, rfl⟩
abbrev main_v58 : Ref sig .tc := ⟨.hbm, 168, rfl⟩
abbrev main_v59 : Ref sig .tc := ⟨.hbm, 169, rfl⟩
abbrev main_call5_cst : Ref sig .tc := ⟨.hbm, 170, rfl⟩
abbrev main_call5_v0 : Ref sig .tc := ⟨.hbm, 171, rfl⟩
abbrev main_call5_cst_0 : Ref sig .tc := ⟨.hbm, 172, rfl⟩
abbrev main_call5_v1 : Ref sig .tc := ⟨.hbm, 173, rfl⟩
abbrev main_call5_v2 : Ref sig .tc := ⟨.hbm, 174, rfl⟩
abbrev main_call5_v3 : Ref sig .tc := ⟨.hbm, 175, rfl⟩
abbrev main_call5_v4 : Ref sig .tc := ⟨.hbm, 176, rfl⟩
abbrev main_call5_v5 : Ref sig .tc := ⟨.hbm, 177, rfl⟩
abbrev main_call5_cst_1 : Ref sig .tc := ⟨.hbm, 178, rfl⟩
abbrev main_call5_v6 : Ref sig .tc := ⟨.hbm, 179, rfl⟩
abbrev main_call5_v7 : Ref sig .tc := ⟨.hbm, 180, rfl⟩
abbrev main_call5_v8 : Ref sig .tc := ⟨.hbm, 181, rfl⟩
abbrev main_v60 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![403], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![403], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S1376 : S_.BroadcastsInDim S1376 (![] : Fin 0 → Fin S1376.rank)
  concatenates_S3300000_S1376_S3301376_d0 : Shape.Concatenates [S3300000, S1376] S3301376 0
  bcast_S_S3301376x1 : S_.BroadcastsInDim S3301376x1 (![] : Fin 0 → Fin S3301376x1.rank)
  bcast_S_S100001x1 : S_.BroadcastsInDim S100001x1 (![] : Fin 0 → Fin S100001x1.rank)
  bcast_S_S3301376 : S_.BroadcastsInDim S3301376 (![] : Fin 0 → Fin S3301376.rank)
  bcast_S3301376_S3301376x1_0 : S3301376.BroadcastsInDim S3301376x1 (![0] : Fin 1 → Fin S3301376x1.rank)
  slices_S100001x1_S100000x1_0_0 : S100001x1.Slices ![0, 0] S100000x1
  bcast_S_S100000x1 : S_.BroadcastsInDim S100000x1 (![] : Fin 0 → Fin S100000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S16_S16_0 : ∀ a, (![0] : Fin 1 → Nat) a + S16.size a ≤ S16.size a
  h_S16 : 0 < S16.numel
  shapeCasts_S16_S1x16 : S16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  bcast_S_S1x16 : S_.BroadcastsInDim S1x16 (![] : Fin 0 → Fin S1x16.rank)
  concatenates_S100000x16_S1x16_S100001x16_d0 : Shape.Concatenates [S100000x16, S1x16] S100001x16 0
  bcast_S1_S1x1_1 : S1.BroadcastsInDim S1x1 (![1] : Fin 1 → Fin S1x1.rank)
  bcast_S1x1_S3301376x1_0_1 : S1x1.BroadcastsInDim S3301376x1 (![0, 1] : Fin 2 → Fin S3301376x1.rank)
  reducesTo_S3301376x1_S3301376_d1 : S3301376x1.ReducesTo [1] S3301376
  h_S_ : 0 < S_.numel
  bcast_S3301376_S3301376x16_0 : S3301376.BroadcastsInDim S3301376x16 (![0] : Fin 1 → Fin S3301376x16.rank)
  bcast_S_S3301376x16 : S_.BroadcastsInDim S3301376x16 (![] : Fin 0 → Fin S3301376x16.rank)
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  reduces_S8192x16_S8192 : S8192x16.Reduces [1] S8192
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  bcast_S64_S1x64_1 : S64.BroadcastsInDim S1x64 (![1] : Fin 1 → Fin S1x64.rank)
  bcast_S_S1x64 : S_.BroadcastsInDim S1x64 (![] : Fin 0 → Fin S1x64.rank)
  concatenates_S100000x64_S1x64_S100001x64_d0 : Shape.Concatenates [S100000x64, S1x64] S100001x64 0
  bcast_S3301376_S3301376x64_0 : S3301376.BroadcastsInDim S3301376x64 (![0] : Fin 1 → Fin S3301376x64.rank)
  bcast_S_S3301376x64 : S_.BroadcastsInDim S3301376x64 (![] : Fin 0 → Fin S3301376x64.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S8192x64_S8192 : S8192x64.Reduces [1] S8192
  reducesTo_S100000x1_S100000_d1 : S100000x1.ReducesTo [1] S100000
  bcast_S_S100000 : S_.BroadcastsInDim S100000 (![] : Fin 0 → Fin S100000.rank)
  bcast_S100000_S100000x1_0 : S100000.BroadcastsInDim S100000x1 (![0] : Fin 1 → Fin S100000x1.rank)
  scatter_S100001x1_S3301376x1_S3301376x1_1_0_0_1_wf : ScatterDims.WF S100001x1 S3301376x1 S3301376x1 [1] [0] [0] 1
  dot_S2000x512_S512x16_S2000x16_1_0_0_1_n_n_wf : DotDims.WF S2000x512 S512x16 S2000x16 [1] [0] [0] [1] [] []
  gather_S100001x16_S3301376x1_S3301376x16_1_0_n_n_0_1_116_wf : GatherDims.WF S100001x16 S3301376x1 S3301376x16 [1] [0] [] [0] [] 1 ![1, 16]
  gather_S100001x64_S3301376x1_S3301376x64_1_0_n_n_0_1_164_wf : GatherDims.WF S100001x64 S3301376x1 S3301376x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x16.size a ≤ S100000x16.size a
  hwx0_3 : ∀ i : grid0.Coords, EltTy.bits .f32 = 32 ∨ (Rect.block (s := S100000x16) S2000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x16.size a ≤ S3301376x16.size a
  hwx1_0 : ∀ i : grid1.Coords, EltTy.bits .f32 = 32 ∨ (Rect.block (s := S3301376x16) S8192x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x16.size a ≤ S3301376x16.size a
  hwx1_1 : ∀ i : grid1.Coords, EltTy.bits .f32 = 32 ∨ (Rect.block (s := S3301376x16) S8192x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x1.size a ≤ S3301376x1.size a
  hwx1_2 : ∀ i : grid1.Coords, EltTy.bits .f32 = 32 ∨ (Rect.block (s := S3301376x1) S8192x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S3301376x64.size a
  hwx2_0 : ∀ i : grid2.Coords, EltTy.bits .f32 = 32 ∨ (Rect.block (s := S3301376x64) S8192x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S3301376x64.size a
  hwx2_1 : ∀ i : grid2.Coords, EltTy.bits .f32 = 32 ∨ (Rect.block (s := S3301376x64) S8192x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x1.size a ≤ S3301376x1.size a
  hwx2_2 : ∀ i : grid2.Coords, EltTy.bits .f32 = 32 ∨ (Rect.block (s := S3301376x1) S8192x1.size (cc2_transform_2 i) (hinb2_2 i)).WholeWords (EltTy.packing .f32)

variable [Facts₀]

def scatter_S100001x1_S3301376x1_S3301376x1_1_0_0_1 : ScatterDims S100001x1 S3301376x1 S3301376x1 where
  updateWindowDims := [1]
  insertedWindowDims := [0]
  scatterDimsToOperandDims := [0]
  indexVectorDim := 1
  wf := scatter_S100001x1_S3301376x1_S3301376x1_1_0_0_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100001x16_S3301376x1_S3301376x16_1_0_n_n_0_1_116 : GatherDims S100001x16 S3301376x1 S3301376x16 where
  offsetDims := [1]
  collapsedSliceDims := [0]
  operandBatchingDims := []
  startIndicesBatchingDims := []
  startIndexMap := [0]
  indexVectorDim := 1
  sliceSizes := ![1, 16]
  wf := gather_S100001x16_S3301376x1_S3301376x16_1_0_n_n_0_1_116_wf
def gather_S100001x64_S3301376x1_S3301376x64_1_0_n_n_0_1_164 : GatherDims S100001x64 S3301376x1 S3301376x64 where
  offsetDims := [1]
  collapsedSliceDims := [0]
  operandBatchingDims := []
  startIndicesBatchingDims := []
  startIndexMap := [0]
  indexVectorDim := 1
  sliceSizes := ![1, 64]
  wf := gather_S100001x64_S3301376x1_S3301376x64_1_0_n_n_0_1_164_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S2000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S8192x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S8192x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S8192x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S8192x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S8192x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S1x64 : Shape := ⟨2, ![1, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S1x16 : Shape := ⟨2, ![1, 16]⟩
abbrev S_ : Shape := ⟨0, ![]⟩
abbrev S3300000x1 : Shape := ⟨2, ![3300000, 1]⟩
abbrev S3300000x16 : Shape := ⟨2, ![3300000, 16]⟩
abbrev S100000x1 : Shape := ⟨2, ![100000, 1]⟩
abbrev S100000x64 : Shape := ⟨2, ![100000, 64]⟩
abbrev S3300000x64 : Shape := ⟨2, ![3300000, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S1x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x16, .f32⟩
  | .hbm, ⟨14, _⟩ => ⟨S1x16, .f32⟩
  | .hbm, ⟨15, _⟩ => ⟨S100000x16, .f32⟩
  | .hbm, ⟨16, _⟩ => ⟨S100000x16, .f32⟩
  | .hbm, ⟨17, _⟩ => ⟨S_, .i32⟩
  | .hbm, ⟨18, _⟩ => ⟨S3300000, .i32⟩
  | .hbm, ⟨19, _⟩ => ⟨S3300000, .i1⟩
  | .hbm, ⟨20, _⟩ => ⟨S_, .i32⟩
  | .hbm, ⟨21, _⟩ => ⟨S3300000, .i32⟩
  | .hbm, ⟨22, _⟩ => ⟨S3300000, .i32⟩
  | .hbm, ⟨23, _⟩ => ⟨S3300000, .i32⟩
  | .hbm, ⟨24, _⟩ => ⟨S3300000x1, .i32⟩
  | .hbm, ⟨25, _⟩ => ⟨S3300000x16, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000x16, .f32⟩
  | .hbm, ⟨35, _⟩ => ⟨S3300000x16, .f32⟩
  | .hbm, ⟨36, _⟩ => ⟨S_, .f32⟩
  | .hbm, ⟨37, _⟩ => ⟨S3300000, .f32⟩
  | .hbm, ⟨38, _⟩ => ⟨S3300000x1, .f32⟩
  | .hbm, ⟨39, _⟩ => ⟨S3300000x1, .f32⟩
  | .hbm, ⟨40, _⟩ => ⟨S3300000x1, .f32⟩
  | .hbm, ⟨41, _⟩ => ⟨S_, .f32⟩
  | .hbm, ⟨42, _⟩ => ⟨S3300000x1, .f32⟩
  | .hbm, ⟨43, _⟩ => ⟨S3300000x1, .f32⟩
  | .hbm, ⟨44, _⟩ => ⟨S_, .f32⟩
  | .hbm, ⟨45, _⟩ => ⟨S3300000x1, .f32⟩
  | .hbm, ⟨46, _⟩ => ⟨S3300000x1, .f32⟩
  | .hbm, ⟨47, _⟩ => ⟨S_, .f32⟩
  | .hbm, ⟨48, _⟩ => ⟨S100000x1, .f32⟩
  | .hbm, ⟨49, _⟩ => ⟨S3300000x1, .i32⟩
  | .hbm, ⟨50, _⟩ => ⟨S100000x1, .f32⟩
  | .hbm, ⟨51, _⟩ => ⟨S_, .f32⟩
  | .hbm, ⟨52, _⟩ => ⟨S3300000x1, .f32⟩
  | .hbm, ⟨53, _⟩ => ⟨S_, .f32⟩
  | .hbm, ⟨54, _⟩ => ⟨S100000x1, .f32⟩
  | .hbm, ⟨55, _⟩ => ⟨S3300000x1, .i32⟩
  | .hbm, ⟨56, _⟩ => ⟨S100000x1, .f32⟩
  | .hbm, ⟨57, _⟩ => ⟨S_, .f32⟩
  | .hbm, ⟨58, _⟩ => ⟨S100000x1, .f32⟩
  | .hbm, ⟨59, _⟩ => ⟨S100000x1, .f32⟩
  | .hbm, ⟨60, _⟩ => ⟨S100000x1, .f32⟩
  | .hbm, ⟨61, _⟩ => ⟨S_, .f32⟩
  | .hbm, ⟨62, _⟩ => ⟨S100000x1, .f32⟩
  | .hbm, ⟨63, _⟩ => ⟨S100000x1, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x64, .f32⟩
  | .hbm, ⟨77, _⟩ => ⟨S_, .i32⟩
  | .hbm, ⟨78, _⟩ => ⟨S3300000, .i32⟩
  | .hbm, ⟨79, _⟩ => ⟨S3300000, .i1⟩
  | .hbm, ⟨80, _⟩ => ⟨S_, .i32⟩
  | .hbm, ⟨81, _⟩ => ⟨S3300000, .i32⟩
  | .hbm, ⟨82, _⟩ => ⟨S3300000, .i32⟩
  | .hbm, ⟨83, _⟩ => ⟨S3300000, .i32⟩
  | .hbm, ⟨84, _⟩ => ⟨S3300000x1, .i32⟩
  | .hbm, ⟨85, _⟩ => ⟨S3300000x64, .f32⟩
  | .hbm, ⟨86, _⟩ => ⟨S3300000x64, .f32⟩
  | .hbm, ⟨87, _⟩ => ⟨S_, .f32⟩
  | .hbm, ⟨88, _⟩ => ⟨S3300000, .f32⟩
  | .hbm, ⟨89, _⟩ => ⟨S3300000x1, .f32⟩
  | .hbm, ⟨90, _⟩ => ⟨S3300000x1, .f32⟩
  | .hbm, ⟨91, _⟩ => ⟨S3300000x1, .f32⟩
  | .hbm, ⟨92, _⟩ => ⟨S_, .f32⟩
  | .hbm, ⟨93, _⟩ => ⟨S3300000x1, .f32⟩
  | .hbm, ⟨94, _⟩ => ⟨S3300000x1, .f32⟩
  | .hbm, ⟨95, _⟩ => ⟨S_, .f32⟩
  | .hbm, ⟨96, _⟩ => ⟨S3300000x1, .f32⟩
  | .hbm, ⟨97, _⟩ => ⟨S3300000x1, .f32⟩
  | .hbm, ⟨98, _⟩ => ⟨S_, .f32⟩
  | .hbm, ⟨99, _⟩ => ⟨S100000x1, .f32⟩
  | .hbm, ⟨100, _⟩ => ⟨S3300000x1, .i32⟩
  | .hbm, ⟨101, _⟩ => ⟨S100000x1, .f32⟩
  | .hbm, ⟨102, _⟩ => ⟨S_, .f32⟩
  | .hbm, ⟨103, _⟩ => ⟨S3300000x1, .f32⟩
  | .hbm, ⟨104, _⟩ => ⟨S_, .f32⟩
  | .hbm, ⟨105, _⟩ => ⟨S100000x1, .f32⟩
  | .hbm, ⟨106, _⟩ => ⟨S3300000x1, .i32⟩
  | .hbm, ⟨107, _⟩ => ⟨S100000x1, .f32⟩
  | .hbm, ⟨108, _⟩ => ⟨S_, .f32⟩
  | .hbm, ⟨109, _⟩ => ⟨S100000x1, .f32⟩
  | .hbm, ⟨110, _⟩ => ⟨S100000x1, .f32⟩
  | .hbm, ⟨111, _⟩ => ⟨S100000x1, .f32⟩
  | .hbm, ⟨112, _⟩ => ⟨S_, .f32⟩
  | .hbm, ⟨113, _⟩ => ⟨S100000, .f32⟩
  | .hbm, ⟨114, _⟩ => ⟨S_, .f32⟩
  | .hbm, ⟨115, _⟩ => ⟨S100000, .f32⟩
  | .hbm, ⟨116, _⟩ => ⟨S100000, .f32⟩
  | .hbm, ⟨117, _⟩ => ⟨S100000x1, .f32⟩
  | .hbm, ⟨118, _⟩ => ⟨S100000x1, .f32⟩
  | .hbm, ⟨119, _⟩ => ⟨S100000x1, .f32⟩
  | .hbm, ⟨120, _⟩ => ⟨S_, .f32⟩
  | .hbm, ⟨121, _⟩ => ⟨S100000, .f32⟩
  | .hbm, ⟨122, _⟩ => ⟨S100000x1, .f32⟩
  | .hbm, ⟨123, _⟩ => ⟨S100000x1, .f32⟩
  | .hbm, ⟨124, _⟩ => ⟨S100000x1, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_cst_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_17 : Ref sig .tc := ⟨.hbm, 102, rfl⟩
abbrev main_v75 : Ref sig .tc := ⟨.hbm, 103, rfl⟩
abbrev main_cst_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_19 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_call1_cst : Ref sig .tc := ⟨.hbm, 112, rfl⟩
abbrev main_call1_v0 : Ref sig .tc := ⟨.hbm, 113, rfl⟩
abbrev main_call1_cst_0 : Ref sig .tc := ⟨.hbm, 114, rfl⟩
abbrev main_call1_v1 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_call1_v5 : Ref sig .tc := ⟨.hbm, 119, rfl⟩
abbrev main_call1_cst_1 : Ref sig .tc := ⟨.hbm, 120, rfl⟩
abbrev main_call1_v6 : Ref sig .tc := ⟨.hbm, 121, rfl⟩
abbrev main_call1_v7 : Ref sig .tc := ⟨.hbm, 122, rfl⟩
abbrev main_call1_v8 : Ref sig .tc := ⟨.hbm, 123, rfl⟩
abbrev main_v82 : Ref sig .tc := ⟨.hbm, 124, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S3300000 : S_.BroadcastsInDim S3300000 (![] : Fin 0 → Fin S3300000.rank)
  bcast_S3300000_S3300000x1_0 : S3300000.BroadcastsInDim S3300000x1 (![0] : Fin 1 → Fin S3300000x1.rank)
  reducesTo_S3300000x16_S3300000_d1 : S3300000x16.ReducesTo [1] S3300000
  h_S_ : 0 < S_.numel
  bcast_S_S3300000x1 : S_.BroadcastsInDim S3300000x1 (![] : Fin 0 → Fin S3300000x1.rank)
  bcast_S_S100000x1 : S_.BroadcastsInDim S100000x1 (![] : Fin 0 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S3300000x64_S3300000_d1 : S3300000x64.ReducesTo [1] S3300000
  reducesTo_S100000x1_S100000_d1 : S100000x1.ReducesTo [1] S100000
  bcast_S_S100000 : S_.BroadcastsInDim S100000 (![] : Fin 0 → Fin S100000.rank)
  bcast_S100000_S100000x1_0 : S100000.BroadcastsInDim S100000x1 (![0] : Fin 1 → Fin S100000x1.rank)
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x1_S3300000x1_S3300000x1_1_0_0_1_wf : ScatterDims.WF S100000x1 S3300000x1 S3300000x1 [1] [0] [0] 1
  dot_S100000x1_S1x64_S100000x64_1_0_0_1_n_n_wf : DotDims.WF S100000x1 S1x64 S100000x64 [1] [0] [0] [1] [] []
  gather_S100000x64_S3300000x1_S3300000x64_1_0_n_n_0_1_164_wf : GatherDims.WF S100000x64 S3300000x1 S3300000x64 [1] [0] [] [0] [] 1 ![1, 64]

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf

class Facts : Prop extends Facts₀ where

variable [Facts]
-- ==== Proof.KernelRun.lean ====
/-
  The kernel program's run with its result named.

  @main is fourteen segments: stretches of host operations and three kernel regions. Every weakly fair
  execution terminates, and each unscoped buffer of a core ends at the contents the segments' fold leaves:
  the launch contents, each stretch's operations applied in order, each region's arrays at what its
  write-backs leave. This states that run with the result buffer read at the fold's last valuation beside
  the argument buffers, which end as launched.
-/
import proofs.«128371_j22909355557151_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of @main on the TensorCores terminates, nothing
    faulting; the result buffer ends at the last valuation of the segments' fold, and the arguments as launched. -/
theorem run : θ_run defs (onTc (τ := τ) (main (F := F))) ⟨m, fun _ => 0, ρ⟩ (fun r => ∀ c : Dev nD,
      r.2.mem ((c.tc : Thread nD τ).loc main_v60) = W14 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v60 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c)⟩)

end Cert.KernelIdeal.ResultRun

end
-- ==== Proof.LibRealEntries.lean ====
/-
  Extended reals that are real numbers, and the operations that keep them so.

  At the ideal instance a float is an extended real. Several operations can only produce a real number,
  whatever they are given: the logistic function maps every extended real into [0, 1]; a finite sum of
  reals is real; an accumulating scatter into an array of reals by updates that are reals is an array of
  reals (each element is the old element plus a finite sum of updates); the larger of a real and one is a
  positive real; and a real divided by a real that is not zero is real. This file proves those facts, with
  the bit patterns of one, zero and minus infinity read as extended reals.
-/
import Idealize.ShloMosaic.PureOps.Ideal.Laws
import Idealize.ShloMosaic.Lib.IdealHost

noncomputable section

namespace Cert.Lib.RealEntries

open Idealize.ShloMosaic
open scoped BigOperators

/-- An extended real that is a real number (neither infinity). -/
def IsReal (x : EReal) : Prop := ∃ r : ℝ, x = (r : EReal)

/-- An extended real that is a positive real number. -/
def IsPosReal (x : EReal) : Prop := ∃ r : ℝ, 0 < r ∧ x = (r : EReal)

theorem isReal_coe (r : ℝ) : IsReal (r : EReal) := ⟨r, rfl⟩

theorem isReal_zero : IsReal 0 := ⟨0, rfl⟩

theorem isReal_one : IsReal 1 := ⟨1, rfl⟩

theorem IsPosReal.isReal {x : EReal} (h : IsPosReal x) : IsReal x := by
  obtain ⟨r, -, e⟩ := h
  exact ⟨r, e⟩

/-- The logistic function of ANY extended real is a real number: 0 at minus infinity, 1 at plus
    infinity, and 1 / (1 + e^(-r)) at a real r. -/
theorem isReal_logistic (x : EReal) : IsReal (Ideal.logistic x) := by
  induction x using EReal.rec with
  | bot => rw [Ideal.logistic_bot]; exact isReal_zero
  | coe r => rw [Ideal.logistic_coe]; exact isReal_coe _
  | top => rw [Ideal.logistic_top]; exact isReal_one

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A finite sum of reals is real. -/
theorem isReal_sum {ι : Type*} (s : Finset ι) (f : ι → EReal) (h : ∀ j ∈ s, IsReal (f j)) :
    IsReal (∑ j ∈ s, f j) := by
  classical
  induction s using Finset.induction_on with
  | empty => rw [Finset.sum_empty]; exact isReal_zero
  | insert a s ha ih =>
    rw [Finset.sum_insert ha]
    exact (h a (Finset.mem_insert_self a s)).add (ih fun j hj => h j (Finset.mem_insert_of_mem hj))

/-- An accumulating scatter of real updates into an array of reals is an array of reals: each element is
    the old element plus the finite sum of the updates landing on it. -/
theorem isReal_hostScatterAdd {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) := by
  unfold Ideal.hostScatterAdd
  exact (hx i).add (isReal_sum _ _ fun j _ => hu j)

/-- The larger of a real and one is a positive real. -/
theorem isPosReal_max_one {x : EReal} (hx : IsReal x) : IsPosReal (max x 1) := by
  obtain ⟨a, rfl⟩ := hx
  refine ⟨max a 1, lt_of_lt_of_le one_pos (le_max_right a 1), ?_⟩
  rw [← EReal.coe_one]
  exact (EReal.coe_strictMono.monotone.map_max (a := a) (b := 1)).symm

/-- A real divided by a positive real is real. -/
theorem isReal_div {x y : EReal} (hx : IsReal x) (hy : IsPosReal y) : IsReal (Ideal.div x y) := by
  obtain ⟨a, rfl⟩ := hx
  obtain ⟨b, hb, rfl⟩ := hy
  rw [Ideal.div_coe hb.ne']
  exact ⟨a * (1 / b), (EReal.coe_mul a (1 / b)).symm⟩

/-- The f32 pattern of minus infinity is the bottom extended real. -/
theorem ofBits_neg_inf_f32 : Ideal.ofBits .f32 0xFF800000#32 = ⊥ := by
  simp [Ideal.ofBits, Ideal.ieee]

end Cert.Lib.RealEntries

end
-- ==== Proof.LibUnitAxisLogSoftmax.lean ====
/-
  A log-softmax along an axis of extent one is identically zero on real entries.

  For a column array X of shape [n, 1], `log_softmax(X, axis = 1)` is computed as
    m = max(-inf, max over the row of X),   D = X - m,   result = D - log(sum over the row of exp D).
  A row has exactly one entry, so where X holds a real number x: m = x, D = x - x = 0, exp D = 1, the
  row sum is 0 + 1 = 1, log 1 = 0, and the result is 0 - 0 = 0. (At an infinite entry the difference x - x
  is not zero on the extended reals, so the entries must be real.)

  The operations are the host program's: a maximum-reduction from minus infinity, a broadcast back to the
  column, a subtraction, an exponential, a sum-reduction from zero, a logarithm and a subtraction.
-/
import Idealize.ShloMosaic.PureOps.Ideal.Laws
import Idealize.ShloMosaic.Lib.IdealHost
import Idealize.ShloMosaic.Lib.Pipeline.Value
import proofs.«128371_j22909355557151_1_alg».proof.Proof.LibRealEntries

noncomputable section

namespace Cert.Lib.UnitAxis

open Idealize.ShloMosaic Cert.Lib.RealEntries
open scoped BigOperators

/-- A column array: n rows, one entry per row. -/
abbrev Col (n : ℕ) : Shape := ⟨2, ![n, 1]⟩
/-- A vector with one entry per row. -/
abbrev Row (n : ℕ) : Shape := ⟨1, ![n]⟩
/-- A scalar. -/
abbrev Sc : Shape := ⟨0, ![]⟩

variable {F : FTy → Type} [FloatOps F] {n : ℕ}

/-- The column shifted by its row maximum: X - broadcast(max(-inf, rowmax X)). -/
def shiftUnit (hr' : (Col n).ReducesTo [1] (Row n)) (h0 : 0 < Sc.numel) (hb0 : Sc.BroadcastsInDim (Row n) ![])
    (hb1 : (Row n).BroadcastsInDim (Col n) ![0]) (X : FVec F (Col n) .f32) : FVec F (Col n) .f32 :=
  subf X (broadcastInDim (Col n) ![0] hb1
    (maximumf (broadcastInDim (Row n) ![] hb0 (constant Sc .f32 0xFF800000#32))
      (Host.reduce FloatOps.maximumf X (constant Sc .f32 0xFF800000#32) hr' h0)))

/-- The log-softmax of a column along its unit axis, as the host program spells it. -/
def logSoftmaxUnit (hr' : (Col n).ReducesTo [1] (Row n)) (h0 : 0 < Sc.numel) (hb0 : Sc.BroadcastsInDim (Row n) ![])
    (hb1 : (Row n).BroadcastsInDim (Col n) ![0]) (X : FVec F (Col n) .f32) : FVec F (Col n) .f32 :=
  subf (shiftUnit hr' h0 hb0 hb1 X)
    (Host.log (broadcastInDim (Col n) ![0] hb1
      (Host.reduceAdd (Host.exp (shiftUnit hr' h0 hb0 hb1 X)) (constant Sc .f32 0x00000000#32) hr' h0)))

/-- The row of a column index. -/
def rowOf (i : (Col n).Idx) : (Row n).Idx := fun a => match a with
  | ⟨0, _⟩ => ⟨(i 0).val, (i 0).isLt⟩

/-- A row vector broadcast to the column reads the row's entry. -/
theorem bcast_col_apply {α : Type} (hb1 : (Row n).BroadcastsInDim (Col n) ![0]) (y : (Row n).Idx → α) (i : (Col n).Idx) :
    broadcastInDim (Col n) ![0] hb1 y i = y (rowOf i) :=
  broadcastInDim_apply _ hb1 y i (rowOf i) (fun a => match a with
    | ⟨0, _⟩ => by
      show (i 0).val = if n = 1 then 0 else (i 0).val
      split_ifs with h1
      · have h2 : (i 0).val < n := (i 0).isLt
        omega
      · rfl)

/-- The one index of the column over a row, whatever the coordinate on the unit axis, is the index itself. -/
theorem lift_rowOf (hr : (Col n).Reduces [1] (Row n)) (i : (Col n).Idx) (k : Fin ((Col n).size 1)) :
    hr.lift (rowOf i) k = i := by
  funext c
  apply Fin.ext
  rw [hr.lift_val]
  unfold Shape.Reduces.liftVal
  match c with
  | ⟨0, _⟩ =>
    split_ifs with h1 h2
    · exact (Nat.zero_ne_one h1).elim
    · rfl
    · exact (h2 Nat.zero_lt_one).elim
  | ⟨1, _⟩ =>
    split_ifs with h1 h2
    · have h3 : k.val < 1 := k.isLt
      have h4 : (i 1).val < 1 := (i 1).isLt
      show k.val = (i 1).val
      omega
    · exact absurd rfl h1
    · exact absurd rfl h1

/-- A fold of `max` over a one-element index type is one `max`. -/
theorem fold_max_fin_one {m : ℕ} (hm : m = 1) (f : Fin m → EReal) (b : EReal) :
    (Finset.univ : Finset (Fin m)).fold max b f = max (f ⟨0, by omega⟩) b := by
  subst hm
  rw [Finset.univ_unique, Finset.fold_singleton]
  rfl

/-- A sum over a one-element index type is its one term. -/
theorem sum_fin_one {m : ℕ} (hm : m = 1) (f : Fin m → EReal) : ∑ k : Fin m, f k = f ⟨0, by omega⟩ := by
  subst hm
  exact Fin.sum_univ_one f

theorem hostExp_apply {s : Shape} (x : FVec Ideal s .f32) (i : s.Idx) : Host.exp x i = Ideal.exp (x i) := rfl

theorem hostLog_apply {s : Shape} (x : FVec Ideal s .f32) (i : s.Idx) : Host.log x i = Ideal.log (x i) := rfl

/-- The maximum over a row, started from minus infinity, is the row's one entry. -/
theorem rowMax_apply (hr' : (Col n).ReducesTo [1] (Row n)) (hr : (Col n).Reduces [1] (Row n)) (h0 : 0 < Sc.numel)
    (X : FVec Ideal (Col n) .f32) (i : (Col n).Idx) :
    Host.reduce FloatOps.maximumf X (constant Sc .f32 0xFF800000#32) hr' h0 (rowOf i) = X i := by
  rw [Host.reduce_eq_fold_single FloatOps.maximumf X _ hr' hr h0 (rowOf i), ValueIdx.constant_apply, ofBits_neg_inf_f32]
  show (Finset.univ : Finset (Fin ((Col n).size 1))).fold max ⊥ (X ∘ hr.lift (rowOf i)) = X i
  rw [fold_max_fin_one (m := (Col n).size 1) rfl, Function.comp_apply, lift_rowOf hr i, max_eq_left bot_le]

/-- The sum over a row, started from zero, of a column that is one everywhere is one. -/
theorem rowSum_exp_zero (hr' : (Col n).ReducesTo [1] (Row n)) (hr : (Col n).Reduces [1] (Row n)) (h0 : 0 < Sc.numel)
    (p : (Row n).Idx) :
    Host.reduceAdd (Host.exp (F := Ideal) (fun _ => (0 : EReal) : FVec Ideal (Col n) .f32)) (constant Sc .f32 0x00000000#32) hr' h0 p = 1 := by
  rw [ValueIdx.hostReduceAdd_apply, Ideal.hostReduceAdd_single hr' hr, ValueIdx.constant_apply, Ideal.ofBits_zero_f32, zero_add,
    sum_fin_one (m := (Col n).size 1) rfl, hostExp_apply, ← EReal.coe_zero, Ideal.exp_coe, Real.exp_zero, EReal.coe_one]

/-- Where every entry is a real number, the column shifted by its row maximum is zero: x - max(-inf, max(x, -inf)) = x - x. -/
theorem shiftUnit_eq_zero (hr' : (Col n).ReducesTo [1] (Row n)) (hr : (Col n).Reduces [1] (Row n)) (h0 : 0 < Sc.numel)
    (hb0 : Sc.BroadcastsInDim (Row n) ![]) (hb1 : (Row n).BroadcastsInDim (Col n) ![0])
    (X : FVec Ideal (Col n) .f32) (hX : ∀ i, IsReal (X i)) :
    shiftUnit hr' h0 hb0 hb1 X = fun _ => (0 : EReal) := by
  funext i
  obtain ⟨r, hxr⟩ := hX i
  unfold shiftUnit
  rw [ValueIdx.subf_apply, bcast_col_apply, ValueIdx.maximumf_apply, ValueIdx.broadcastInDim_scalar_apply, ValueIdx.constant_apply,
    rowMax_apply hr' hr h0 X i, ofBits_neg_inf_f32, max_eq_right bot_le, hxr, ← EReal.coe_sub, sub_self, EReal.coe_zero]

/-- THE LAW: on a column of real numbers the log-softmax along the unit axis is zero everywhere. -/
theorem logSoftmaxUnit_eq_zero (hr' : (Col n).ReducesTo [1] (Row n)) (hr : (Col n).Reduces [1] (Row n)) (h0 : 0 < Sc.numel)
    (hb0 : Sc.BroadcastsInDim (Row n) ![]) (hb1 : (Row n).BroadcastsInDim (Col n) ![0])
    (X : FVec Ideal (Col n) .f32) (hX : ∀ i, IsReal (X i)) :
    logSoftmaxUnit hr' h0 hb0 hb1 X = fun _ => (0 : EReal) := by
  unfold logSoftmaxUnit
  rw [shiftUnit_eq_zero hr' hr h0 hb0 hb1 X hX]
  funext i
  rw [ValueIdx.subf_apply, hostLog_apply, bcast_col_apply, rowSum_exp_zero hr' hr h0, ← EReal.coe_one, Ideal.log_coe,
    if_neg (by norm_num), Real.log_one, EReal.coe_zero, sub_zero]

end Cert.Lib.UnitAxis

end
-- ==== Proof.LibRealHostOps.lean ====
/-
  Arrays of real numbers under the host program's array operations.

  The facts of extended reals that are real numbers, restated at the host program's operations read at an index: an
  accumulating scatter, a slice, a broadcast of the scalar one or zero, the larger of an array and an array of ones, the
  host's quotient, and the host's spelling of the logistic function, 1 / (1 + exp(-z)).
-/
import Idealize.ShloMosaic.PureOps.Ideal.Laws
import Idealize.ShloMosaic.Lib.IdealHost
import Idealize.ShloMosaic.Lib.ValueIdx
import proofs.«128371_j22909355557151_1_alg».proof.Proof.LibRealEntries

noncomputable section

namespace Cert.Lib.RealEntries

open Idealize.ShloMosaic

/-- An accumulating scatter of real updates into an array of reals, read at an index, is real. -/
theorem isReal_scatterAdd {s si su : Shape} (d : ScatterDims s si su) {w : Nat} (x : FVec Ideal s .f32) (idx : IVec si w)
    (upd : FVec Ideal su .f32) (hx : ∀ i, IsReal (x i)) (hu : ∀ j, IsReal (upd j)) (i : s.Idx) :
    IsReal (Host.scatterAdd d x idx upd i) :=
  isReal_hostScatterAdd d x idx upd hx hu i

/-- A slice of an array of reals is an array of reals. -/
theorem isReal_slice {s t : Shape} (off : Fin s.rank → Nat) (x : s.Idx → EReal) (h : s.Slices off t)
    (hx : ∀ k, IsReal (x k)) (j : t.Idx) : IsReal (extractStridedSlice t off x h j) :=
  hx _

/-- The scalar one broadcast to any shape reads one. -/
theorem bcast_one_apply {T : Shape} (h : (⟨0, ![]⟩ : Shape).BroadcastsInDim T ![]) (j : T.Idx) :
    broadcastInDim T ![] h (constant (F := Ideal) ⟨0, ![]⟩ .f32 0x3F800000#32) j = 1 := by
  rw [ValueIdx.broadcastInDim_scalar_apply, ValueIdx.constant_apply, Ideal.ofBits_one_f32]

/-- The scalar zero broadcast to any shape reads zero. -/
theorem bcast_zero_apply {T : Shape} (h : (⟨0, ![]⟩ : Shape).BroadcastsInDim T ![]) (j : T.Idx) :
    broadcastInDim T ![] h (constant (F := Ideal) ⟨0, ![]⟩ .f32 0x00000000#32) j = 0 := by
  rw [ValueIdx.broadcastInDim_scalar_apply, ValueIdx.constant_apply, Ideal.ofBits_zero_f32]

theorem isReal_bcast_one {T : Shape} (h : (⟨0, ![]⟩ : Shape).BroadcastsInDim T ![]) (j : T.Idx) :
    IsReal (broadcastInDim T ![] h (constant (F := Ideal) ⟨0, ![]⟩ .f32 0x3F800000#32) j) := by
  rw [bcast_one_apply]; exact isReal_one

theorem isReal_bcast_zero {T : Shape} (h : (⟨0, ![]⟩ : Shape).BroadcastsInDim T ![]) (j : T.Idx) :
    IsReal (broadcastInDim T ![] h (constant (F := Ideal) ⟨0, ![]⟩ .f32 0x00000000#32) j) := by
  rw [bcast_zero_apply]; exact isReal_zero

/-- The larger of an array of reals and an array of ones is an array of positive reals. -/
theorem isPosReal_maximumf_one {s : Shape} (a b : FVec Ideal s .f32) (ha : ∀ i, IsReal (a i)) (hb : ∀ i, b i = 1) (i : s.Idx) :
    IsPosReal (maximumf a b i) := by
  rw [ValueIdx.maximumf_apply, hb]
  exact isPosReal_max_one (ha i)

/-- The host's quotient of a real by a positive real, read at an index, is real. -/
theorem isReal_hostDivf {s : Shape} (a b : FVec Ideal s .f32) (i : s.Idx) (ha : IsReal (a i)) (hb : IsPosReal (b i)) :
    IsReal (Host.divf a b i) :=
  isReal_div ha hb

/-- The host's spelling of the logistic function, 1 / (1 + exp(-z)) over arrays of ones, read at an index, is real. -/
theorem isReal_hostLogistic {s : Shape} (o1 o2 Z : FVec Ideal s .f32) (h1 : ∀ j, o1 j = 1) (h2 : ∀ j, o2 j = 1) (j : s.Idx) :
    IsReal (Host.divf o1 (addf o2 (Host.exp (Host.negf Z))) j) := by
  show IsReal (Ideal.div (o1 j) (o2 j + Ideal.exp (-(Z j))))
  rw [h1, h2]
  exact isReal_logistic (Z j)

end Cert.Lib.RealEntries

end
-- ==== Proof.KernelSoftmaxTail.lean ====
/-
  The kernel program's last stretch of host operations: the log-softmax along the unit axis.

  The thirteen operations after the scatter-mean are the log-softmax's: the maximum-reduction from minus infinity, its
  broadcast, the subtraction, the exponential, the sum-reduction from zero, its broadcast, the logarithm and the last
  subtraction. Read back in order, the result buffer holds the log-softmax of the scatter-mean buffer.
-/
import proofs.«128371_j22909355557151_1_alg».proof.Proof.Gen.KernelIdeal.Frame
import Idealize.ShloMosaic.Lib.StableHlo.Run
import Idealize.ShloMosaic.Lib.Pipeline.Value
import Idealize.ShloMosaic.Lib.IdealHost
import proofs.«128371_j22909355557151_1_alg».proof.Proof.LibUnitAxisLogSoftmax

set_option maxRecDepth 16384

noncomputable section

namespace Cert.KernelIdeal.ResultValue

open Cert.KernelIdeal Cert.KernelIdeal.Gen
open Idealize.ShloMosaic Idealize.ShloMosaic.TcCoe Idealize.SL.Sem Idealize.ShloMosaic.StableHlo
open Idealize.ShloMosaic.Pipeline (Dat Cfg Window)
open Cert.Lib.UnitAxis Cert.Lib.RealEntries

variable (m : (ℓ : Loc nD τ sig) → Buf (Elt Ideal) ℓ) (ρ : Dev nD → PrngReg)

attribute [local irreducible] Host.reduce Host.reduceAdd Host.scatterAdd in
set_option maxRecDepth 8192 in
set_option maxHeartbeats 4000000 in
/-- The result buffer after the last stretch is the log-softmax of the scatter-mean the stretch before it leaves: the fold
    unrolled, each operation's result read at its own buffer, by computation (the reductions stay folded meanwhile). -/
theorem result_fold (V : Valuation τ sig (Elt Ideal)) :
    StableHlo.after hostOps3_1 V (Proc.devRef .tc main_v60)
      = logSoftmaxUnit (F := Ideal) (n := 100000) reducesTo_S100000x1_S100000_d1 h_S_ bcast_S_S100000 bcast_S100000_S100000x1_0
          (V (Proc.devRef .tc main_v59)) := by
  simp only [after_cons, after_nil]
  rfl

/-- The result buffer at the end of the run, from the scatter-mean buffer. -/
theorem result_eq (c : Dev nD) :
    W14 m ρ c (Proc.devRef .tc main_v60)
      = logSoftmaxUnit (F := Ideal) (n := 100000) reducesTo_S100000x1_S100000_d1 h_S_ bcast_S_S100000 bcast_S100000_S100000x1_0
          (W13 m ρ c (Proc.devRef .tc main_v59)) :=
  result_fold (W13 m ρ c)

end Cert.KernelIdeal.ResultValue

end
-- ==== Proof.KernelMean.lean ====
/-
  The kernel program's scatter-mean, read back.

  After the third region, thirteen host operations scatter the region's output (the per-edge messages) into zeros at
  the target indices — a negative index first moved up by the padded node count —, keep the first 100000 rows, and
  divide by the count buffer. The result depends on three buffers only: the messages, the target indices, the counts.
-/
import proofs.«128371_j22909355557151_1_alg».proof.Proof.Gen.KernelIdeal.Frame
import Idealize.ShloMosaic.Lib.StableHlo.Run
import Idealize.ShloMosaic.Lib.Pipeline.Value
import Idealize.ShloMosaic.Lib.IdealHost
import proofs.«128371_j22909355557151_1_alg».proof.Proof.LibUnitAxisLogSoftmax

set_option maxRecDepth 16384

noncomputable section

namespace Cert.KernelIdeal.ResultValue

open Cert.KernelIdeal Cert.KernelIdeal.Gen
open Idealize.ShloMosaic Idealize.ShloMosaic.TcCoe Idealize.SL.Sem Idealize.ShloMosaic.StableHlo
open Idealize.ShloMosaic.Pipeline (Dat Cfg Window)
open Cert.Lib.UnitAxis Cert.Lib.RealEntries

variable (m : (ℓ : Loc nD τ sig) → Buf (Elt Ideal) ℓ) (ρ : Dev nD → PrngReg)

/-- The scatter-mean of messages `M` at target indices `I` over the counts `Cn`: the messages scattered into zeros (a
    negative index first moved up by the padded node count), the first 100000 rows, divided by the counts. -/
def scatterMeanK (M : FVec Ideal S3301376x1 .f32) (I : IVec S3301376 32) (Cn : FVec Ideal S100000x1 .f32) : FVec Ideal S100000x1 .f32 :=
  Host.divf (extractStridedSlice S100000x1 ![0, 0]
      (Host.scatterAdd scatter_S100001x1_S3301376x1_S3301376x1_1_0_0_1
        (broadcastInDim S100001x1 ![] bcast_S_S100001x1 (constant (F := Ideal) S_ .f32 0x00000000#32))
        (broadcastInDim S3301376x1 ![0] bcast_S3301376_S3301376x1_0
          (select (cmpi .slt I (broadcastInDim S3301376 ![] bcast_S_S3301376 (constantI S_ 32 0#32)))
            (addi I (broadcastInDim S3301376 ![] bcast_S_S3301376 (constantI S_ 32 100001#32))) I))
        M) slices_S100001x1_S100000x1_0_0)
    Cn

set_option maxHeartbeats 4000000 in
/-- The thirteen operations, run from any contents `V`: each operation's result read at its own buffer. -/
theorem mean_fold (V : Valuation τ sig (Elt Ideal)) :
    StableHlo.after hostOps3 V (Proc.devRef .tc main_v59)
      = scatterMeanK (V (Proc.devRef .tc main_v49)) (V (Proc.devRef .tc main_v9)) (V (Proc.devRef .tc main_v21)) := by
  after_results
  rfl

/-- The scatter-mean buffer after the stretch, from the buffers the third region leaves. -/
theorem mean_eq (c : Dev nD) :
    W13 m ρ c (Proc.devRef .tc main_v59)
      = scatterMeanK (W12 m ρ c (Proc.devRef .tc main_v49)) (W12 m ρ c (Proc.devRef .tc main_v9)) (W12 m ρ c (Proc.devRef .tc main_v21)) :=
  mean_fold (W12 m ρ c)

end Cert.KernelIdeal.ResultValue

end
-- ==== Proof.KernelCount.lean ====
/-
  The kernel program's count buffer.

  The first stretch of host operations builds the padded edge lists and then the counts: ones scattered into zeros at
  the target indices, the first 100000 rows, and the larger of that and one. No later host operation and no region
  writes the count buffer, so the last stretch reads it as the first stretch left it.
-/
import proofs.«128371_j22909355557151_1_alg».proof.Proof.Gen.KernelIdeal.Frame
import Idealize.ShloMosaic.Lib.StableHlo.Run
import Idealize.ShloMosaic.Lib.Pipeline.Value
import Idealize.ShloMosaic.Lib.IdealHost
import proofs.«128371_j22909355557151_1_alg».proof.Proof.LibUnitAxisLogSoftmax
import Idealize.ShloMosaic.Lib.Pipeline.Frame
set_option maxRecDepth 16384

noncomputable section

namespace Cert.KernelIdeal.ResultValue

open Cert.KernelIdeal Cert.KernelIdeal.Gen
open Idealize.ShloMosaic Idealize.ShloMosaic.TcCoe Idealize.SL.Sem Idealize.ShloMosaic.StableHlo
open Idealize.ShloMosaic.Pipeline (Dat Cfg Window)
open Cert.Lib.UnitAxis Cert.Lib.RealEntries

variable (m : (ℓ : Loc nD τ sig) → Buf (Elt Ideal) ℓ) (ρ : Dev nD → PrngReg)

/-! ## The count buffer, written by the first stretch -/

section Lists

variable {F : FTy → Type} [FloatOps F]

/-- The first stretch's operations up to the padded edge lists. -/
abbrev edgeOps : List (HloOp τ sig (Elt F)) :=
  [ StableHlo.nullary main_v0 (iotaInDim S100000 32 0),
    StableHlo.unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v1 main_v2 rfl shapeCasts_S1x3200000_S3200000,
    StableHlo.binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v4 main_v5 rfl shapeCasts_S1x3200000_S3200000,
    StableHlo.binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_c (constantI S_ 32 100000#32),
    StableHlo.unary main_c main_v7 (broadcastInDim S1376 ![] bcast_S_S1376 : (⟨S_, .i32⟩ : BufTy).Contents (Elt F) → (⟨S1376, .i32⟩ : BufTy).Contents (Elt F)),
    StableHlo.binary main_v3 main_v7 main_v8 ((fun a b => concatenate S3301376 0 [⟨S3300000, a⟩, ⟨S1376, b⟩] concatenates_S3300000_S1376_S3301376_d0) : (⟨S3300000, .i32⟩ : BufTy).Contents (Elt F) → (⟨S1376, .i32⟩ : BufTy).Contents (Elt F) → (⟨S3301376, .i32⟩ : BufTy).Contents (Elt F)),
    StableHlo.binary main_v6 main_v7 main_v9 ((fun a b => concatenate S3301376 0 [⟨S3300000, a⟩, ⟨S1376, b⟩] concatenates_S3300000_S1376_S3301376_d0) : (⟨S3300000, .i32⟩ : BufTy).Contents (Elt F) → (⟨S1376, .i32⟩ : BufTy).Contents (Elt F) → (⟨S3301376, .i32⟩ : BufTy).Contents (Elt F)) ]

/-- The first stretch's remaining operations: ones scattered into zeros at the target indices, the first 100000 rows,
    the larger of that and one. -/
abbrev countOps : List (HloOp τ sig (Elt F)) :=
  [ StableHlo.nullary main_cst (constant S_ .f32 0x3F800000#32),
    StableHlo.unary main_cst main_v10 (broadcastInDim S3301376x1 ![] bcast_S_S3301376x1 : (⟨S_, .f32⟩ : BufTy).Contents (Elt F) → (⟨S3301376x1, .f32⟩ : BufTy).Contents (Elt F)),
    StableHlo.nullary main_cst_0 (constant S_ .f32 0x00000000#32),
    StableHlo.unary main_cst_0 main_v11 (broadcastInDim S100001x1 ![] bcast_S_S100001x1 : (⟨S_, .f32⟩ : BufTy).Contents (Elt F) → (⟨S100001x1, .f32⟩ : BufTy).Contents (Elt F)),
    StableHlo.nullary main_c_1 (constantI S_ 32 0#32),
    StableHlo.unary main_c_1 main_v12 (broadcastInDim S3301376 ![] bcast_S_S3301376 : (⟨S_, .i32⟩ : BufTy).Contents (Elt F) → (⟨S3301376, .i32⟩ : BufTy).Contents (Elt F)),
    StableHlo.binary main_v9 main_v12 main_v13 (cmpi .slt : (⟨S3301376, .i32⟩ : BufTy).Contents (Elt F) → (⟨S3301376, .i32⟩ : BufTy).Contents (Elt F) → (⟨S3301376, .i1⟩ : BufTy).Contents (Elt F)),
    StableHlo.nullary main_c_2 (constantI S_ 32 100001#32),
    StableHlo.unary main_c_2 main_v14 (broadcastInDim S3301376 ![] bcast_S_S3301376 : (⟨S_, .i32⟩ : BufTy).Contents (Elt F) → (⟨S3301376, .i32⟩ : BufTy).Contents (Elt F)),
    StableHlo.binary main_v9 main_v14 main_v15 (addi : (⟨S3301376, .i32⟩ : BufTy).Contents (Elt F) → (⟨S3301376, .i32⟩ : BufTy).Contents (Elt F) → (⟨S3301376, .i32⟩ : BufTy).Contents (Elt F)),
    StableHlo.ternary main_v13 main_v15 main_v9 main_v16 (select : (⟨S3301376, .i1⟩ : BufTy).Contents (Elt F) → (⟨S3301376, .i32⟩ : BufTy).Contents (Elt F) → (⟨S3301376, .i32⟩ : BufTy).Contents (Elt F) → (⟨S3301376, .i32⟩ : BufTy).Contents (Elt F)),
    StableHlo.unary main_v16 main_v17 (broadcastInDim S3301376x1 ![0] bcast_S3301376_S3301376x1_0 : (⟨S3301376, .i32⟩ : BufTy).Contents (Elt F) → (⟨S3301376x1, .i32⟩ : BufTy).Contents (Elt F)),
    StableHlo.ternary main_v11 main_v17 main_v10 main_v18 ((fun x i u => Host.scatterAdd scatter_S100001x1_S3301376x1_S3301376x1_1_0_0_1 x i u) : (⟨S100001x1, .f32⟩ : BufTy).Contents (Elt F) → (⟨S3301376x1, .i32⟩ : BufTy).Contents (Elt F) → (⟨S3301376x1, .f32⟩ : BufTy).Contents (Elt F) → (⟨S100001x1, .f32⟩ : BufTy).Contents (Elt F)),
    StableHlo.unary main_v18 main_v19 ((extractStridedSlice S100000x1 ![0, 0] · slices_S100001x1_S100000x1_0_0) : (⟨S100001x1, .f32⟩ : BufTy).Contents (Elt F) → (⟨S100000x1, .f32⟩ : BufTy).Contents (Elt F)),
    StableHlo.nullary main_cst_3 (constant S_ .f32 0x3F800000#32),
    StableHlo.unary main_cst_3 main_v20 (broadcastInDim S100000x1 ![] bcast_S_S100000x1 : (⟨S_, .f32⟩ : BufTy).Contents (Elt F) → (⟨S100000x1, .f32⟩ : BufTy).Contents (Elt F)),
    StableHlo.binary main_v19 main_v20 main_v21 (maximumf : (⟨S100000x1, .f32⟩ : BufTy).Contents (Elt F) → (⟨S100000x1, .f32⟩ : BufTy).Contents (Elt F) → (⟨S100000x1, .f32⟩ : BufTy).Contents (Elt F)) ]

theorem hostOps0_split : (hostOps0 : List (HloOp τ sig (Elt F))) = edgeOps ++ countOps := rfl

end Lists

/-- The counts at target indices `I`: ones scattered into zeros, the first 100000 rows, and the larger of that and one. -/
def countK (I : IVec S3301376 32) : FVec Ideal S100000x1 .f32 :=
  maximumf (extractStridedSlice S100000x1 ![0, 0]
      (Host.scatterAdd scatter_S100001x1_S3301376x1_S3301376x1_1_0_0_1
        (broadcastInDim S100001x1 ![] bcast_S_S100001x1 (constant (F := Ideal) S_ .f32 0x00000000#32))
        (broadcastInDim S3301376x1 ![0] bcast_S3301376_S3301376x1_0
          (select (cmpi .slt I (broadcastInDim S3301376 ![] bcast_S_S3301376 (constantI S_ 32 0#32)))
            (addi I (broadcastInDim S3301376 ![] bcast_S_S3301376 (constantI S_ 32 100001#32))) I))
        (broadcastInDim S3301376x1 ![] bcast_S_S3301376x1 (constant (F := Ideal) S_ .f32 0x3F800000#32))) slices_S100001x1_S100000x1_0_0)
    (broadcastInDim S100000x1 ![] bcast_S_S100000x1 (constant (F := Ideal) S_ .f32 0x3F800000#32))

set_option maxHeartbeats 4000000 in
/-- The seventeen operations, run from any contents `V`: each operation's result read at its own buffer. -/
theorem count_fold (V : Valuation τ sig (Elt Ideal)) :
    StableHlo.after (countOps (F := Ideal)) V (Proc.devRef .tc main_v21) = countK (V (Proc.devRef .tc main_v9)) := by
  after_results
  rfl

/-- The count buffer after the first stretch is `countK` of the target indices the edge-list operations leave. -/
theorem count_eq (c : Dev nD) : ∃ I : IVec S3301376 32, W1 m ρ c (Proc.devRef .tc main_v21) = countK I := by
  refine ⟨StableHlo.after (edgeOps (F := Ideal)) (W0 m ρ c) (Proc.devRef .tc main_v9), ?_⟩
  show StableHlo.after hostOps0 (W0 m ρ c) (Proc.devRef .tc main_v21) = _
  rw [hostOps0_split, StableHlo.after_append]
  exact count_fold _

/-! ## The count buffer is not written between the first stretch and the last -/

/-- From the first stretch to the last, no host operation writes the count buffer and no region has it among its
    arrays: the valuation after each segment reads it as the valuation before. -/
theorem count_kept (c : Dev nD) : W12 m ρ c (Proc.devRef .tc main_v21) = W1 m ρ c (Proc.devRef .tc main_v21) :=
  calc W12 m ρ c (Proc.devRef .tc main_v21)
    _ = W11 m ρ c (Proc.devRef .tc main_v21) := W12_of_ne m ρ c main_v21 (by decide)
    _ = W10 m ρ c (Proc.devRef .tc main_v21) := StableHlo.after_of_forall_not_mem (b := Proc.devRef .tc main_v21) _ _ (List.forall_iff_forall_mem.mp (by
          simp only [hostOps2_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v21) := StableHlo.after_of_forall_not_mem (b := Proc.devRef .tc main_v21) _ _ (List.forall_iff_forall_mem.mp (by
          simp only [hostOps2_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v21) := StableHlo.after_of_forall_not_mem (b := Proc.devRef .tc main_v21) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v21) := StableHlo.after_of_forall_not_mem (b := Proc.devRef .tc main_v21) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v21) := StableHlo.after_of_forall_not_mem (b := Proc.devRef .tc main_v21) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v21) := W6_of_ne m ρ c main_v21 (by decide)
    _ = W4 m ρ c (Proc.devRef .tc main_v21) := StableHlo.after_of_forall_not_mem (b := Proc.devRef .tc main_v21) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v21) := StableHlo.after_of_forall_not_mem (b := Proc.devRef .tc main_v21) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v21) := StableHlo.after_of_forall_not_mem (b := Proc.devRef .tc main_v21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v21) := W2_of_ne m ρ c main_v21 (by decide)

end Cert.KernelIdeal.ResultValue

end
-- ==== Proof.KernelMessages.lean ====
/-
  The third region's output holds real numbers.

  The region runs 403 grid points; point t writes back a block of 8192 rows, the logistic function of a lane sum of
  products of its two input blocks. The logistic function of any extended real is a real number, and the blocks cover
  the 3301376 rows (row r lies in block r / 8192), so every entry of the array after the region is real.
-/
import proofs.«128371_j22909355557151_1_alg».proof.Proof.Gen.KernelIdeal.Frame
import Idealize.ShloMosaic.Lib.StableHlo.Run
import Idealize.ShloMosaic.Lib.Pipeline.Value
import Idealize.ShloMosaic.Lib.IdealHost
import proofs.«128371_j22909355557151_1_alg».proof.Proof.LibUnitAxisLogSoftmax

set_option maxRecDepth 16384

noncomputable section

namespace Cert.KernelIdeal.ResultValue

open Cert.KernelIdeal Cert.KernelIdeal.Gen
open Idealize.ShloMosaic Idealize.ShloMosaic.TcCoe Idealize.SL.Sem Idealize.ShloMosaic.StableHlo
open Idealize.ShloMosaic.Pipeline (Dat Cfg Window)
open Cert.Lib.UnitAxis Cert.Lib.RealEntries

variable (m : (ℓ : Loc nD τ sig) → Buf (Elt Ideal) ℓ) (ρ : Dev nD → PrngReg)

/-! ## The third region's output: every entry the logistic function of something -/

/-- The block's origin inside its staging buffer is zero on both axes. -/
theorem hz : (![0, 0] : Fin 2 → Nat) = fun _ => 0 := funext fun a => by fin_cases a <;> rfl

section Region
-- the buffer contents when the region is entered: a parameter, never opened
variable (V : (c : Dev nD) → (b : Ref sig .tc) → Buf (Elt Ideal) ((c : Thread nD τ).loc b))

/-- What a point writes back is the body's payload of its input blocks. -/
theorem flushed_eq (c : Dev nD) (t : Fin cfg2.N) :
    (dat2 V c).flushed 2 t = k2_pay1 (View.ld (iblk2 V c 0 t) r2_0) (View.ld (iblk2 V c 1 t) r2_0) := by
  show (cfg2.win 2).cut (grid2.coords t) ((dat2 V c).after 2 t) = _
  rw [after2_2]
  unfold out2_2
  rw [View.canon_unit_zero hz]
  rfl

/-- The payload is the logistic function of a lane sum, entry by entry: a real number. -/
theorem payload_real (x0 x1 : Vec Ideal S8192x64 .f32) (y : S8192x1.Idx) : IsReal (k2_pay1 x0 x1 y) := by
  unfold k2_pay1
  exact isReal_logistic _

/-- So every entry a point writes back is a real number. -/
theorem flushed_real (c : Dev nD) (t : Fin cfg2.N) (y : ((cfg2.win 2).xblock (cfg2.grid.coords t)).Idx) :
    IsReal ((dat2 V c).flushed 2 t y) := by
  rw [flushed_eq V c t]
  exact payload_real _ _ y

end Region

/-- Output block t starts at row 8192 t, column 0. -/
theorem idx_facts : ∀ t : Fin cfg2.N, win2_2.index t (0 : Fin 2) = t.val ∧ win2_2.index t (1 : Fin 2) = 0 :=
  (by decide +kernel : ∀ t : Fin grid2.N, win2_2.index t (0 : Fin 2) = t.val ∧ win2_2.index t (1 : Fin 2) = 0)

/-- An index of the array is in point t's block iff each coordinate is in the block's range on its axis. -/
theorem mem_blk (t : Fin cfg2.N) (i : S3301376x1.Idx) :
    i ∈ ((cfg2.win 2).blk t).view.set ↔ ∀ a : Fin 2, win2_2.index t a * S8192x1.size a ≤ (i a).val ∧ (i a).val < win2_2.index t a * S8192x1.size a + S8192x1.size a := by
  show i ∈ ((View.whole main_v49).slice (win2_2.rect t)).set ↔ _
  rw [View.set_slice_whole, Rect.mem_set_unit]
  exact Iff.rfl

/-- The 403 blocks of 8192 rows cover the 3301376 rows: row r is in block r / 8192. -/
theorem covered (i : S3301376x1.Idx) :
    ∃ t : Fin cfg2.N, (cfg2.win 2).flush t = true ∧ i ∈ ((cfg2.win 2).blk t).view.set := by
  have hi0 : (i 0).val < 3301376 := (i 0).isLt
  have hi1 : (i 1).val < 1 := (i 1).isLt
  have hN : grid2.N = 403 := N_2
  have ht : (i 0).val / 8192 < cfg2.N := by show (i 0).val / 8192 < grid2.N; rw [hN]; omega
  obtain ⟨e0, e1⟩ := idx_facts ⟨(i 0).val / 8192, ht⟩
  refine ⟨⟨(i 0).val / 8192, ht⟩, flush2_2 _, ?_⟩
  rw [mem_blk]
  intro a
  match a with
  | ⟨0, _⟩ =>
    show win2_2.index ⟨(i 0).val / 8192, ht⟩ (0 : Fin 2) * 8192 ≤ (i 0).val ∧ (i 0).val < win2_2.index ⟨(i 0).val / 8192, ht⟩ (0 : Fin 2) * 8192 + 8192
    rw [e0]
    show (i 0).val / 8192 * 8192 ≤ (i 0).val ∧ (i 0).val < (i 0).val / 8192 * 8192 + 8192
    omega
  | ⟨1, _⟩ =>
    show win2_2.index ⟨(i 0).val / 8192, ht⟩ (1 : Fin 2) * 1 ≤ (i 1).val ∧ (i 1).val < win2_2.index ⟨(i 0).val / 8192, ht⟩ (1 : Fin 2) * 1 + 1
    rw [e1]
    omega

/-- Every entry of the region's output array after the region is a real number, whatever the region was entered with. -/
theorem array_real (V : (c : Dev nD) → (b : Ref sig .tc) → Buf (Elt Ideal) ((c : Thread nD τ).loc b)) (c : Dev nD)
    (j : S3301376x1.Idx) : IsReal ((dat2 V c).arrAt 2 cfg2.N j) :=
  (dat2 V c).arrAt_forall_of_cover 2 (fun _ v => IsReal v) (fun t _ y => flushed_real V c t y) covered j

/-- Every per-edge message of the second layer is a real number. -/
theorem messages_real (c : Dev nD) (j : S3301376x1.Idx) : IsReal (W12 m ρ c (Proc.devRef .tc main_v49) j) := by
  rw [show W12 m ρ c (Proc.devRef .tc main_v49) = (dat2 (V11 m ρ) c).arrAt 2 cfg2.N from W12_arr m ρ c 2]
  exact array_real (V11 m ρ) c j

end Cert.KernelIdeal.ResultValue

end
-- ==== Proof.KernelValue.lean ====
/-
  The kernel program's result is zero everywhere.

  The result is the log-softmax, along an axis of extent one, of the second layer's scatter-mean s / cnt. Here s is
  the first 100000 rows of the accumulating scatter of the third region's output (the per-edge messages) into zeros,
  and cnt the larger of one and the first 100000 rows of the accumulating scatter of ones into zeros.
  * Every message is a real number: the third region writes back, block by block, the logistic function of a lane sum,
    and the logistic function of any extended real is real; its 403 blocks of 8192 rows cover the array.
  * So s is an array of reals and cnt an array of positive reals, and s / cnt is real, whatever indices the edges carry.
  * The log-softmax of a column of reals along its unit axis is zero.
  Nothing about the gathers, the first two regions or the edge indices is used.
-/
import proofs.«128371_j22909355557151_1_alg».proof.Proof.Gen.KernelIdeal.Frame
import Idealize.ShloMosaic.Lib.StableHlo.Run
import Idealize.ShloMosaic.Lib.Pipeline.Value
import Idealize.ShloMosaic.Lib.IdealHost
import proofs.«128371_j22909355557151_1_alg».proof.Proof.LibUnitAxisLogSoftmax
import proofs.«128371_j22909355557151_1_alg».proof.Proof.LibRealHostOps
import proofs.«128371_j22909355557151_1_alg».proof.Proof.KernelSoftmaxTail
import proofs.«128371_j22909355557151_1_alg».proof.Proof.KernelMean
import proofs.«128371_j22909355557151_1_alg».proof.Proof.KernelCount
import proofs.«128371_j22909355557151_1_alg».proof.Proof.KernelMessages

set_option maxRecDepth 16384

noncomputable section

namespace Cert.KernelIdeal.ResultValue

open Cert.KernelIdeal Cert.KernelIdeal.Gen
open Idealize.ShloMosaic Idealize.ShloMosaic.TcCoe Idealize.SL.Sem Idealize.ShloMosaic.StableHlo
open Idealize.ShloMosaic.Pipeline (Dat Cfg Window)
open Cert.Lib.UnitAxis Cert.Lib.RealEntries

variable (m : (ℓ : Loc nD τ sig) → Buf (Elt Ideal) ℓ) (ρ : Dev nD → PrngReg)

/-! ## The result -/

/-- The counts at any target indices are positive reals. -/
theorem countK_pos (I : IVec S3301376 32) (i : S100000x1.Idx) : IsPosReal (countK I i) := by
  unfold countK
  refine isPosReal_maximumf_one _ _ (fun k => ?_) (fun k => bcast_one_apply _ k) i
  refine isReal_slice _ _ _ (fun k' => ?_) k
  exact isReal_scatterAdd _ _ _ _ (fun k'' => isReal_bcast_zero _ k'') (fun k'' => isReal_bcast_one _ k'') k'

/-- The count buffer, as the last stretch reads it, holds positive reals. -/
theorem count_pos (c : Dev nD) (i : S100000x1.Idx) : IsPosReal (W12 m ρ c (Proc.devRef .tc main_v21) i) := by
  rw [count_kept m ρ c]
  obtain ⟨I, e⟩ := count_eq m ρ c
  rw [e]
  exact countK_pos I i

/-- The scatter-mean of real messages over positive real counts holds reals. -/
theorem scatterMeanK_real (M : FVec Ideal S3301376x1 .f32) (I : IVec S3301376 32) (Cn : FVec Ideal S100000x1 .f32)
    (hM : ∀ j, IsReal (M j)) (hC : ∀ i, IsPosReal (Cn i)) (i : S100000x1.Idx) : IsReal (scatterMeanK M I Cn i) := by
  unfold scatterMeanK
  refine isReal_hostDivf _ _ i ?_ (hC i)
  refine isReal_slice _ _ _ (fun k => ?_) i
  exact isReal_scatterAdd _ _ _ _ (fun k' => isReal_bcast_zero _ k') hM k

/-- The scatter-mean buffer holds reals. -/
theorem mean_real (c : Dev nD) (i : S100000x1.Idx) : IsReal (W13 m ρ c (Proc.devRef .tc main_v59) i) := by
  rw [mean_eq m ρ c]
  exact scatterMeanK_real _ _ _ (messages_real m ρ c) (count_pos m ρ c) i

/-- THE KERNEL'S RESULT: zero everywhere. -/
theorem result_zero (c : Dev nD) : W14 m ρ c (Proc.devRef .tc main_v60) = fun _ => (0 : EReal) := by
  rw [result_eq m ρ c]
  exact logSoftmaxUnit_eq_zero _ (by decide) _ _ _ _ (mean_real m ρ c)

end Cert.KernelIdeal.ResultValue

end
-- ==== Proof.RefRun.lean ====
/-
  The reference's run, read back as far as the claim needs it.

  The reference program is a straight line of 119 host operations. Its result is the log-softmax, along an
  axis of extent one, of the second layer's scatter-mean: s / max(cnt, 1), where s is the accumulating scatter
  of the per-edge messages 1 / (1 + exp(-z)) into zeros and cnt the accumulating scatter of ones into zeros.
  Only that last stretch matters for the value: a message is a real number whatever the inner product z is,
  so s and cnt are arrays of reals, the quotient is real, and the log-softmax of a column of reals along its
  unit axis is zero. The first 84 operations (both gathers, the first layer, the inner products) are therefore
  kept as an unopened valuation, read only at the inner products' buffer and at the target-index buffer.

  `run`: every weakly fair execution of @main terminates, with the result buffer at that last stretch's
  term over the unopened valuation, and the argument buffers unchanged.
-/
import proofs.«128371_j22909355557151_1_alg».proof.Proof.Gen.ReferenceIdeal
import Idealize.ShloMosaic.Lib.StableHlo.Run
import Idealize.ShloMosaic.Lib.Pipeline.Frame
import proofs.«128371_j22909355557151_1_alg».proof.Proof.LibUnitAxisLogSoftmax

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.UnitAxis

variable {F : FTy → Type} [FloatOps F]

/-- The first 84 operations: the edge lists, the first layer, the second layer's features, gathers and inner products. -/
abbrev opsHead : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_arg0 main_arg2 main_v7 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    unary main_arg3 main_v8 (broadcastInDim S1x16 ![1] bcast_S16_S1x16_1 : (⟨S16, .f32⟩ : BufTy).Contents (Elt F) → (⟨S1x16, .f32⟩ : BufTy).Contents (Elt F)),
    unary main_v8 main_v9 (broadcastInDim S100000x16 ![0, 1] bcast_S1x16_S100000x16_0_1 : (⟨S1x16, .f32⟩ : BufTy).Contents (Elt F) → (⟨S100000x16, .f32⟩ : BufTy).Contents (Elt F)),
    binary main_v7 main_v9 main_v10 (addf : (⟨S100000x16, .f32⟩ : BufTy).Contents (Elt F) → (⟨S100000x16, .f32⟩ : BufTy).Contents (Elt F) → (⟨S100000x16, .f32⟩ : BufTy).Contents (Elt F)),
    nullary main_c (constantI S_ 32 0#32),
    unary main_c main_v11 (broadcastInDim S3300000 ![] bcast_S_S3300000 : (⟨S_, .i32⟩ : BufTy).Contents (Elt F) → (⟨S3300000, .i32⟩ : BufTy).Contents (Elt F)),
    binary main_v6 main_v11 main_v12 (cmpi .slt : (⟨S3300000, .i32⟩ : BufTy).Contents (Elt F) → (⟨S3300000, .i32⟩ : BufTy).Contents (Elt F) → (⟨S3300000, .i1⟩ : BufTy).Contents (Elt F)),
    nullary main_c_0 (constantI S_ 32 100000#32),
    unary main_c_0 main_v13 (broadcastInDim S3300000 ![] bcast_S_S3300000 : (⟨S_, .i32⟩ : BufTy).Contents (Elt F) → (⟨S3300000, .i32⟩ : BufTy).Contents (Elt F)),
    binary main_v6 main_v13 main_v14 (addi : (⟨S3300000, .i32⟩ : BufTy).Contents (Elt F) → (⟨S3300000, .i32⟩ : BufTy).Contents (Elt F) → (⟨S3300000, .i32⟩ : BufTy).Contents (Elt F)),
    ternary main_v12 main_v14 main_v6 main_v15 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v15 main_v16 (broadcastInDim S3300000x1 ![0] bcast_S3300000_S3300000x1_0 : (⟨S3300000, .i32⟩ : BufTy).Contents (Elt F) → (⟨S3300000x1, .i32⟩ : BufTy).Contents (Elt F)),
    binary main_v10 main_v16 main_v17 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    nullary main_c_1 (constantI S_ 32 0#32),
    unary main_c_1 main_v18 (broadcastInDim S3300000 ![] bcast_S_S3300000 : (⟨S_, .i32⟩ : BufTy).Contents (Elt F) → (⟨S3300000, .i32⟩ : BufTy).Contents (Elt F)),
    binary main_v3 main_v18 main_v19 (cmpi .slt : (⟨S3300000, .i32⟩ : BufTy).Contents (Elt F) → (⟨S3300000, .i32⟩ : BufTy).Contents (Elt F) → (⟨S3300000, .i1⟩ : BufTy).Contents (Elt F)),
    nullary main_c_2 (constantI S_ 32 100000#32),
    unary main_c_2 main_v20 (broadcastInDim S3300000 ![] bcast_S_S3300000 : (⟨S_, .i32⟩ : BufTy).Contents (Elt F) → (⟨S3300000, .i32⟩ : BufTy).Contents (Elt F)),
    binary main_v3 main_v20 main_v21 (addi : (⟨S3300000, .i32⟩ : BufTy).Contents (Elt F) → (⟨S3300000, .i32⟩ : BufTy).Contents (Elt F) → (⟨S3300000, .i32⟩ : BufTy).Contents (Elt F)),
    ternary main_v19 main_v21 main_v3 main_v22 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v22 main_v23 (broadcastInDim S3300000x1 ![0] bcast_S3300000_S3300000x1_0 : (⟨S3300000, .i32⟩ : BufTy).Contents (Elt F) → (⟨S3300000x1, .i32⟩ : BufTy).Contents (Elt F)),
    binary main_v10 main_v23 main_v24 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    binary main_v17 main_v24 main_v25 (mulf : (⟨S3300000x16, .f32⟩ : BufTy).Contents (Elt F) → (⟨S3300000x16, .f32⟩ : BufTy).Contents (Elt F) → (⟨S3300000x16, .f32⟩ : BufTy).Contents (Elt F)),
    nullary main_cst (constant S_ .f32 0x00000000#32),
    binary main_v25 main_cst main_v26 ((fun x v => Host.reduceAdd x v reducesTo_S3300000x16_S3300000_d1 h_S_) : (⟨S3300000x16, .f32⟩ : BufTy).Contents (Elt F) → (⟨S_, .f32⟩ : BufTy).Contents (Elt F) → (⟨S3300000, .f32⟩ : BufTy).Contents (Elt F)),
    unary main_v26 main_v27 (broadcastInDim S3300000x1 ![0] bcast_S3300000_S3300000x1_0 : (⟨S3300000, .f32⟩ : BufTy).Contents (Elt F) → (⟨S3300000x1, .f32⟩ : BufTy).Contents (Elt F)),
    unary main_v27 main_v28 (Host.negf : (⟨S3300000x1, .f32⟩ : BufTy).Contents (Elt F) → (⟨S3300000x1, .f32⟩ : BufTy).Contents (Elt F)),
    unary main_v28 main_v29 (Host.exp : (⟨S3300000x1, .f32⟩ : BufTy).Contents (Elt F) → (⟨S3300000x1, .f32⟩ : BufTy).Contents (Elt F)),
    nullary main_cst_3 (constant S_ .f32 0x3F800000#32),
    unary main_cst_3 main_v30 (broadcastInDim S3300000x1 ![] bcast_S_S3300000x1 : (⟨S_, .f32⟩ : BufTy).Contents (Elt F) → (⟨S3300000x1, .f32⟩ : BufTy).Contents (Elt F)),
    binary main_v30 main_v29 main_v31 (addf : (⟨S3300000x1, .f32⟩ : BufTy).Contents (Elt F) → (⟨S3300000x1, .f32⟩ : BufTy).Contents (Elt F) → (⟨S3300000x1, .f32⟩ : BufTy).Contents (Elt F)),
    nullary main_cst_4 (constant S_ .f32 0x3F800000#32),
    unary main_cst_4 main_v32 (broadcastInDim S3300000x1 ![] bcast_S_S3300000x1 : (⟨S_, .f32⟩ : BufTy).Contents (Elt F) → (⟨S3300000x1, .f32⟩ : BufTy).Contents (Elt F)),
    binary main_v32 main_v31 main_v33 (Host.divf : (⟨S3300000x1, .f32⟩ : BufTy).Contents (Elt F) → (⟨S3300000x1, .f32⟩ : BufTy).Contents (Elt F) → (⟨S3300000x1, .f32⟩ : BufTy).Contents (Elt F)),
    nullary main_cst_5 (constant S_ .f32 0x00000000#32),
    unary main_cst_5 main_v34 (broadcastInDim S100000x1 ![] bcast_S_S100000x1 : (⟨S_, .f32⟩ : BufTy).Contents (Elt F) → (⟨S100000x1, .f32⟩ : BufTy).Contents (Elt F)),
    unary main_v6 main_v35 (broadcastInDim S3300000x1 ![0] bcast_S3300000_S3300000x1_0 : (⟨S3300000, .i32⟩ : BufTy).Contents (Elt F) → (⟨S3300000x1, .i32⟩ : BufTy).Contents (Elt F)),
    ternary main_v34 main_v35 main_v33 main_v36 ((fun x i u => Host.scatterAdd scatter_S100000x1_S3300000x1_S3300000x1_1_0_0_1 x i u) : (⟨S100000x1, .f32⟩ : BufTy).Contents (Elt F) → (⟨S3300000x1, .i32⟩ : BufTy).Contents (Elt F) → (⟨S3300000x1, .f32⟩ : BufTy).Contents (Elt F) → (⟨S100000x1, .f32⟩ : BufTy).Contents (Elt F)),
    nullary main_cst_6 (constant S_ .f32 0x3F800000#32),
    unary main_cst_6 main_v37 (broadcastInDim S3300000x1 ![] bcast_S_S3300000x1 : (⟨S_, .f32⟩ : BufTy).Contents (Elt F) → (⟨S3300000x1, .f32⟩ : BufTy).Contents (Elt F)),
    nullary main_cst_7 (constant S_ .f32 0x00000000#32),
    unary main_cst_7 main_v38 (broadcastInDim S100000x1 ![] bcast_S_S100000x1 : (⟨S_, .f32⟩ : BufTy).Contents (Elt F) → (⟨S100000x1, .f32⟩ : BufTy).Contents (Elt F)),
    unary main_v6 main_v39 (broadcastInDim S3300000x1 ![0] bcast_S3300000_S3300000x1_0 : (⟨S3300000, .i32⟩ : BufTy).Contents (Elt F) → (⟨S3300000x1, .i32⟩ : BufTy).Contents (Elt F)),
    ternary main_v38 main_v39 main_v37 main_v40 ((fun x i u => Host.scatterAdd scatter_S100000x1_S3300000x1_S3300000x1_1_0_0_1 x i u) : (⟨S100000x1, .f32⟩ : BufTy).Contents (Elt F) → (⟨S3300000x1, .i32⟩ : BufTy).Contents (Elt F) → (⟨S3300000x1, .f32⟩ : BufTy).Contents (Elt F) → (⟨S100000x1, .f32⟩ : BufTy).Contents (Elt F)),
    nullary main_cst_8 (constant S_ .f32 0x3F800000#32),
    unary main_cst_8 main_v41 (broadcastInDim S100000x1 ![] bcast_S_S100000x1 : (⟨S_, .f32⟩ : BufTy).Contents (Elt F) → (⟨S100000x1, .f32⟩ : BufTy).Contents (Elt F)),
    binary main_v40 main_v41 main_v42 (maximumf : (⟨S100000x1, .f32⟩ : BufTy).Contents (Elt F) → (⟨S100000x1, .f32⟩ : BufTy).Contents (Elt F) → (⟨S100000x1, .f32⟩ : BufTy).Contents (Elt F)),
    binary main_v36 main_v42 main_v43 (Host.divf : (⟨S100000x1, .f32⟩ : BufTy).Contents (Elt F) → (⟨S100000x1, .f32⟩ : BufTy).Contents (Elt F) → (⟨S100000x1, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x1, .f32⟩) main_call0_v0) (broadcastInDim S100000x1 ![] bcast_S_S100000x1),
    TRef.binary (TRef.of (T := ⟨S100000x1, .f32⟩) main_v43) (TRef.of (T := ⟨S100000x1, .f32⟩) main_call0_v0) (TRef.of (T := ⟨S100000x1, .f32⟩) main_v44) maximumf,
    binary main_v44 main_arg4 main_v45 ((fun l r => Host.dotGeneral dot_S100000x1_S1x64_S100000x64_1_0_0_1_n_n none l r) : (⟨S100000x1, .f32⟩ : BufTy).Contents (Elt F) → (⟨S1x64, .f32⟩ : BufTy).Contents (Elt F) → (⟨S100000x64, .f32⟩ : BufTy).Contents (Elt F)),
    unary main_arg5 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v6 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v6 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v6 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    nullary main_c_11 (constantI S_ 32 0#32),
    unary main_c_11 main_v56 (broadcastInDim S3300000 ![] bcast_S_S3300000 : (⟨S_, .i32⟩ : BufTy).Contents (Elt F) → (⟨S3300000, .i32⟩ : BufTy).Contents (Elt F)),
    binary main_v3 main_v56 main_v57 (cmpi .slt : (⟨S3300000, .i32⟩ : BufTy).Contents (Elt F) → (⟨S3300000, .i32⟩ : BufTy).Contents (Elt F) → (⟨S3300000, .i1⟩ : BufTy).Contents (Elt F)),
    nullary main_c_12 (constantI S_ 32 100000#32),
    unary main_c_12 main_v58 (broadcastInDim S3300000 ![] bcast_S_S3300000 : (⟨S_, .i32⟩ : BufTy).Contents (Elt F) → (⟨S3300000, .i32⟩ : BufTy).Contents (Elt F)),
    binary main_v3 main_v58 main_v59 (addi : (⟨S3300000, .i32⟩ : BufTy).Contents (Elt F) → (⟨S3300000, .i32⟩ : BufTy).Contents (Elt F) → (⟨S3300000, .i32⟩ : BufTy).Contents (Elt F)),
    ternary main_v57 main_v59 main_v3 main_v60 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v60 main_v61 (broadcastInDim S3300000x1 ![0] bcast_S3300000_S3300000x1_0 : (⟨S3300000, .i32⟩ : BufTy).Contents (Elt F) → (⟨S3300000x1, .i32⟩ : BufTy).Contents (Elt F)),
    binary main_v48 main_v61 main_v62 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    binary main_v55 main_v62 main_v63 (mulf : (⟨S3300000x64, .f32⟩ : BufTy).Contents (Elt F) → (⟨S3300000x64, .f32⟩ : BufTy).Contents (Elt F) → (⟨S3300000x64, .f32⟩ : BufTy).Contents (Elt F)),
    nullary main_cst_13 (constant S_ .f32 0x00000000#32),
    binary main_v63 main_cst_13 main_v64 ((fun x v => Host.reduceAdd x v reducesTo_S3300000x64_S3300000_d1 h_S_) : (⟨S3300000x64, .f32⟩ : BufTy).Contents (Elt F) → (⟨S_, .f32⟩ : BufTy).Contents (Elt F) → (⟨S3300000, .f32⟩ : BufTy).Contents (Elt F)),
    unary main_v64 main_v65 (broadcastInDim S3300000x1 ![0] bcast_S3300000_S3300000x1_0 : (⟨S3300000, .f32⟩ : BufTy).Contents (Elt F) → (⟨S3300000x1, .f32⟩ : BufTy).Contents (Elt F)) ]

/-- The last 35 operations: the messages, the two scatters, the mean, and the log-softmax. -/
abbrev opsTail : List (HloOp τ sig (Elt F)) :=
  [ unary main_v65 main_v66 (Host.negf : (⟨S3300000x1, .f32⟩ : BufTy).Contents (Elt F) → (⟨S3300000x1, .f32⟩ : BufTy).Contents (Elt F)),
    unary main_v66 main_v67 (Host.exp : (⟨S3300000x1, .f32⟩ : BufTy).Contents (Elt F) → (⟨S3300000x1, .f32⟩ : BufTy).Contents (Elt F)),
    nullary main_cst_14 (constant S_ .f32 0x3F800000#32),
    unary main_cst_14 main_v68 (broadcastInDim S3300000x1 ![] bcast_S_S3300000x1 : (⟨S_, .f32⟩ : BufTy).Contents (Elt F) → (⟨S3300000x1, .f32⟩ : BufTy).Contents (Elt F)),
    binary main_v68 main_v67 main_v69 (addf : (⟨S3300000x1, .f32⟩ : BufTy).Contents (Elt F) → (⟨S3300000x1, .f32⟩ : BufTy).Contents (Elt F) → (⟨S3300000x1, .f32⟩ : BufTy).Contents (Elt F)),
    nullary main_cst_15 (constant S_ .f32 0x3F800000#32),
    unary main_cst_15 main_v70 (broadcastInDim S3300000x1 ![] bcast_S_S3300000x1 : (⟨S_, .f32⟩ : BufTy).Contents (Elt F) → (⟨S3300000x1, .f32⟩ : BufTy).Contents (Elt F)),
    binary main_v70 main_v69 main_v71 (Host.divf : (⟨S3300000x1, .f32⟩ : BufTy).Contents (Elt F) → (⟨S3300000x1, .f32⟩ : BufTy).Contents (Elt F) → (⟨S3300000x1, .f32⟩ : BufTy).Contents (Elt F)),
    nullary main_cst_16 (constant S_ .f32 0x00000000#32),
    unary main_cst_16 main_v72 (broadcastInDim S100000x1 ![] bcast_S_S100000x1 : (⟨S_, .f32⟩ : BufTy).Contents (Elt F) → (⟨S100000x1, .f32⟩ : BufTy).Contents (Elt F)),
    unary main_v6 main_v73 (broadcastInDim S3300000x1 ![0] bcast_S3300000_S3300000x1_0 : (⟨S3300000, .i32⟩ : BufTy).Contents (Elt F) → (⟨S3300000x1, .i32⟩ : BufTy).Contents (Elt F)),
    ternary main_v72 main_v73 main_v71 main_v74 ((fun x i u => Host.scatterAdd scatter_S100000x1_S3300000x1_S3300000x1_1_0_0_1 x i u) : (⟨S100000x1, .f32⟩ : BufTy).Contents (Elt F) → (⟨S3300000x1, .i32⟩ : BufTy).Contents (Elt F) → (⟨S3300000x1, .f32⟩ : BufTy).Contents (Elt F) → (⟨S100000x1, .f32⟩ : BufTy).Contents (Elt F)),
    nullary main_cst_17 (constant S_ .f32 0x3F800000#32),
    unary main_cst_17 main_v75 (broadcastInDim S3300000x1 ![] bcast_S_S3300000x1 : (⟨S_, .f32⟩ : BufTy).Contents (Elt F) → (⟨S3300000x1, .f32⟩ : BufTy).Contents (Elt F)),
    nullary main_cst_18 (constant S_ .f32 0x00000000#32),
    unary main_cst_18 main_v76 (broadcastInDim S100000x1 ![] bcast_S_S100000x1 : (⟨S_, .f32⟩ : BufTy).Contents (Elt F) → (⟨S100000x1, .f32⟩ : BufTy).Contents (Elt F)),
    unary main_v6 main_v77 (broadcastInDim S3300000x1 ![0] bcast_S3300000_S3300000x1_0 : (⟨S3300000, .i32⟩ : BufTy).Contents (Elt F) → (⟨S3300000x1, .i32⟩ : BufTy).Contents (Elt F)),
    ternary main_v76 main_v77 main_v75 main_v78 ((fun x i u => Host.scatterAdd scatter_S100000x1_S3300000x1_S3300000x1_1_0_0_1 x i u) : (⟨S100000x1, .f32⟩ : BufTy).Contents (Elt F) → (⟨S3300000x1, .i32⟩ : BufTy).Contents (Elt F) → (⟨S3300000x1, .f32⟩ : BufTy).Contents (Elt F) → (⟨S100000x1, .f32⟩ : BufTy).Contents (Elt F)),
    nullary main_cst_19 (constant S_ .f32 0x3F800000#32),
    unary main_cst_19 main_v79 (broadcastInDim S100000x1 ![] bcast_S_S100000x1 : (⟨S_, .f32⟩ : BufTy).Contents (Elt F) → (⟨S100000x1, .f32⟩ : BufTy).Contents (Elt F)),
    binary main_v78 main_v79 main_v80 (maximumf : (⟨S100000x1, .f32⟩ : BufTy).Contents (Elt F) → (⟨S100000x1, .f32⟩ : BufTy).Contents (Elt F) → (⟨S100000x1, .f32⟩ : BufTy).Contents (Elt F)),
    binary main_v74 main_v80 main_v81 (Host.divf : (⟨S100000x1, .f32⟩ : BufTy).Contents (Elt F) → (⟨S100000x1, .f32⟩ : BufTy).Contents (Elt F) → (⟨S100000x1, .f32⟩ : BufTy).Contents (Elt F)),
    TRef.nullary (TRef.of (T := ⟨S_, .f32⟩) main_call1_cst) (constant S_ .f32 0xFF800000#32),
    TRef.binary (TRef.of (T := ⟨S100000x1, .f32⟩) main_v81) (TRef.of (T := ⟨S_, .f32⟩) main_call1_cst) (TRef.of (T := ⟨S100000, .f32⟩) main_call1_v0) (fun x v => Host.reduce FloatOps.maximumf x v reducesTo_S100000x1_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.binary (TRef.of (T := ⟨S100000x1, .f32⟩) main_v81) (TRef.of (T := ⟨S100000x1, .f32⟩) main_call1_v3) (TRef.of (T := ⟨S100000x1, .f32⟩) main_call1_v4) subf,
    TRef.unary (TRef.of (T := ⟨S100000x1, .f32⟩) main_call1_v4) (TRef.of (T := ⟨S100000x1, .f32⟩) main_call1_v5) Host.exp,
    TRef.nullary (TRef.of (T := ⟨S_, .f32⟩) main_call1_cst_1) (constant S_ .f32 0x00000000#32),
    TRef.binary (TRef.of (T := ⟨S100000x1, .f32⟩) main_call1_v5) (TRef.of (T := ⟨S_, .f32⟩) main_call1_cst_1) (TRef.of (T := ⟨S100000, .f32⟩) main_call1_v6) (fun x v => Host.reduceAdd x v reducesTo_S100000x1_S100000_d1 h_S_),
    TRef.unary (TRef.of (T := ⟨S100000, .f32⟩) main_call1_v6) (TRef.of (T := ⟨S100000x1, .f32⟩) main_call1_v7) (broadcastInDim S100000x1 ![0] bcast_S100000_S100000x1_0),
    TRef.unary (TRef.of (T := ⟨S100000x1, .f32⟩) main_call1_v7) (TRef.of (T := ⟨S100000x1, .f32⟩) main_call1_v8) Host.log,
    TRef.binary (TRef.of (T := ⟨S100000x1, .f32⟩) main_call1_v4) (TRef.of (T := ⟨S100000x1, .f32⟩) main_call1_v8) (TRef.of (T := ⟨S100000x1, .f32⟩) main_v82) subf ]

/-- All 119 operations, in order. -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_arg0 main_arg2 main_v7 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    unary main_arg3 main_v8 (broadcastInDim S1x16 ![1] bcast_S16_S1x16_1 : (⟨S16, .f32⟩ : BufTy).Contents (Elt F) → (⟨S1x16, .f32⟩ : BufTy).Contents (Elt F)),
    unary main_v8 main_v9 (broadcastInDim S100000x16 ![0, 1] bcast_S1x16_S100000x16_0_1 : (⟨S1x16, .f32⟩ : BufTy).Contents (Elt F) → (⟨S100000x16, .f32⟩ : BufTy).Contents (Elt F)),
    binary main_v7 main_v9 main_v10 (addf : (⟨S100000x16, .f32⟩ : BufTy).Contents (Elt F) → (⟨S100000x16, .f32⟩ : BufTy).Contents (Elt F) → (⟨S100000x16, .f32⟩ : BufTy).Contents (Elt F)),
    nullary main_c (constantI S_ 32 0#32),
    unary main_c main_v11 (broadcastInDim S3300000 ![] bcast_S_S3300000 : (⟨S_, .i32⟩ : BufTy).Contents (Elt F) → (⟨S3300000, .i32⟩ : BufTy).Contents (Elt F)),
    binary main_v6 main_v11 main_v12 (cmpi .slt : (⟨S3300000, .i32⟩ : BufTy).Contents (Elt F) → (⟨S3300000, .i32⟩ : BufTy).Contents (Elt F) → (⟨S3300000, .i1⟩ : BufTy).Contents (Elt F)),
    nullary main_c_0 (constantI S_ 32 100000#32),
    unary main_c_0 main_v13 (broadcastInDim S3300000 ![] bcast_S_S3300000 : (⟨S_, .i32⟩ : BufTy).Contents (Elt F) → (⟨S3300000, .i32⟩ : BufTy).Contents (Elt F)),
    binary main_v6 main_v13 main_v14 (addi : (⟨S3300000, .i32⟩ : BufTy).Contents (Elt F) → (⟨S3300000, .i32⟩ : BufTy).Contents (Elt F) → (⟨S3300000, .i32⟩ : BufTy).Contents (Elt F)),
    ternary main_v12 main_v14 main_v6 main_v15 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v15 main_v16 (broadcastInDim S3300000x1 ![0] bcast_S3300000_S3300000x1_0 : (⟨S3300000, .i32⟩ : BufTy).Contents (Elt F) → (⟨S3300000x1, .i32⟩ : BufTy).Contents (Elt F)),
    binary main_v10 main_v16 main_v17 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    nullary main_c_1 (constantI S_ 32 0#32),
    unary main_c_1 main_v18 (broadcastInDim S3300000 ![] bcast_S_S3300000 : (⟨S_, .i32⟩ : BufTy).Contents (Elt F) → (⟨S3300000, .i32⟩ : BufTy).Contents (Elt F)),
    binary main_v3 main_v18 main_v19 (cmpi .slt : (⟨S3300000, .i32⟩ : BufTy).Contents (Elt F) → (⟨S3300000, .i32⟩ : BufTy).Contents (Elt F) → (⟨S3300000, .i1⟩ : BufTy).Contents (Elt F)),
    nullary main_c_2 (constantI S_ 32 100000#32),
    unary main_c_2 main_v20 (broadcastInDim S3300000 ![] bcast_S_S3300000 : (⟨S_, .i32⟩ : BufTy).Contents (Elt F) → (⟨S3300000, .i32⟩ : BufTy).Contents (Elt F)),
    binary main_v3 main_v20 main_v21 (addi : (⟨S3300000, .i32⟩ : BufTy).Contents (Elt F) → (⟨S3300000, .i32⟩ : BufTy).Contents (Elt F) → (⟨S3300000, .i32⟩ : BufTy).Contents (Elt F)),
    ternary main_v19 main_v21 main_v3 main_v22 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v22 main_v23 (broadcastInDim S3300000x1 ![0] bcast_S3300000_S3300000x1_0 : (⟨S3300000, .i32⟩ : BufTy).Contents (Elt F) → (⟨S3300000x1, .i32⟩ : BufTy).Contents (Elt F)),
    binary main_v10 main_v23 main_v24 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    binary main_v17 main_v24 main_v25 (mulf : (⟨S3300000x16, .f32⟩ : BufTy).Contents (Elt F) → (⟨S3300000x16, .f32⟩ : BufTy).Contents (Elt F) → (⟨S3300000x16, .f32⟩ : BufTy).Contents (Elt F)),
    nullary main_cst (constant S_ .f32 0x00000000#32),
    binary main_v25 main_cst main_v26 ((fun x v => Host.reduceAdd x v reducesTo_S3300000x16_S3300000_d1 h_S_) : (⟨S3300000x16, .f32⟩ : BufTy).Contents (Elt F) → (⟨S_, .f32⟩ : BufTy).Contents (Elt F) → (⟨S3300000, .f32⟩ : BufTy).Contents (Elt F)),
    unary main_v26 main_v27 (broadcastInDim S3300000x1 ![0] bcast_S3300000_S3300000x1_0 : (⟨S3300000, .f32⟩ : BufTy).Contents (Elt F) → (⟨S3300000x1, .f32⟩ : BufTy).Contents (Elt F)),
    unary main_v27 main_v28 (Host.negf : (⟨S3300000x1, .f32⟩ : BufTy).Contents (Elt F) → (⟨S3300000x1, .f32⟩ : BufTy).Contents (Elt F)),
    unary main_v28 main_v29 (Host.exp : (⟨S3300000x1, .f32⟩ : BufTy).Contents (Elt F) → (⟨S3300000x1, .f32⟩ : BufTy).Contents (Elt F)),
    nullary main_cst_3 (constant S_ .f32 0x3F800000#32),
    unary main_cst_3 main_v30 (broadcastInDim S3300000x1 ![] bcast_S_S3300000x1 : (⟨S_, .f32⟩ : BufTy).Contents (Elt F) → (⟨S3300000x1, .f32⟩ : BufTy).Contents (Elt F)),
    binary main_v30 main_v29 main_v31 (addf : (⟨S3300000x1, .f32⟩ : BufTy).Contents (Elt F) → (⟨S3300000x1, .f32⟩ : BufTy).Contents (Elt F) → (⟨S3300000x1, .f32⟩ : BufTy).Contents (Elt F)),
    nullary main_cst_4 (constant S_ .f32 0x3F800000#32),
    unary main_cst_4 main_v32 (broadcastInDim S3300000x1 ![] bcast_S_S3300000x1 : (⟨S_, .f32⟩ : BufTy).Contents (Elt F) → (⟨S3300000x1, .f32⟩ : BufTy).Contents (Elt F)),
    binary main_v32 main_v31 main_v33 (Host.divf : (⟨S3300000x1, .f32⟩ : BufTy).Contents (Elt F) → (⟨S3300000x1, .f32⟩ : BufTy).Contents (Elt F) → (⟨S3300000x1, .f32⟩ : BufTy).Contents (Elt F)),
    nullary main_cst_5 (constant S_ .f32 0x00000000#32),
    unary main_cst_5 main_v34 (broadcastInDim S100000x1 ![] bcast_S_S100000x1 : (⟨S_, .f32⟩ : BufTy).Contents (Elt F) → (⟨S100000x1, .f32⟩ : BufTy).Contents (Elt F)),
    unary main_v6 main_v35 (broadcastInDim S3300000x1 ![0] bcast_S3300000_S3300000x1_0 : (⟨S3300000, .i32⟩ : BufTy).Contents (Elt F) → (⟨S3300000x1, .i32⟩ : BufTy).Contents (Elt F)),
    ternary main_v34 main_v35 main_v33 main_v36 ((fun x i u => Host.scatterAdd scatter_S100000x1_S3300000x1_S3300000x1_1_0_0_1 x i u) : (⟨S100000x1, .f32⟩ : BufTy).Contents (Elt F) → (⟨S3300000x1, .i32⟩ : BufTy).Contents (Elt F) → (⟨S3300000x1, .f32⟩ : BufTy).Contents (Elt F) → (⟨S100000x1, .f32⟩ : BufTy).Contents (Elt F)),
    nullary main_cst_6 (constant S_ .f32 0x3F800000#32),
    unary main_cst_6 main_v37 (broadcastInDim S3300000x1 ![] bcast_S_S3300000x1 : (⟨S_, .f32⟩ : BufTy).Contents (Elt F) → (⟨S3300000x1, .f32⟩ : BufTy).Contents (Elt F)),
    nullary main_cst_7 (constant S_ .f32 0x00000000#32),
    unary main_cst_7 main_v38 (broadcastInDim S100000x1 ![] bcast_S_S100000x1 : (⟨S_, .f32⟩ : BufTy).Contents (Elt F) → (⟨S100000x1, .f32⟩ : BufTy).Contents (Elt F)),
    unary main_v6 main_v39 (broadcastInDim S3300000x1 ![0] bcast_S3300000_S3300000x1_0 : (⟨S3300000, .i32⟩ : BufTy).Contents (Elt F) → (⟨S3300000x1, .i32⟩ : BufTy).Contents (Elt F)),
    ternary main_v38 main_v39 main_v37 main_v40 ((fun x i u => Host.scatterAdd scatter_S100000x1_S3300000x1_S3300000x1_1_0_0_1 x i u) : (⟨S100000x1, .f32⟩ : BufTy).Contents (Elt F) → (⟨S3300000x1, .i32⟩ : BufTy).Contents (Elt F) → (⟨S3300000x1, .f32⟩ : BufTy).Contents (Elt F) → (⟨S100000x1, .f32⟩ : BufTy).Contents (Elt F)),
    nullary main_cst_8 (constant S_ .f32 0x3F800000#32),
    unary main_cst_8 main_v41 (broadcastInDim S100000x1 ![] bcast_S_S100000x1 : (⟨S_, .f32⟩ : BufTy).Contents (Elt F) → (⟨S100000x1, .f32⟩ : BufTy).Contents (Elt F)),
    binary main_v40 main_v41 main_v42 (maximumf : (⟨S100000x1, .f32⟩ : BufTy).Contents (Elt F) → (⟨S100000x1, .f32⟩ : BufTy).Contents (Elt F) → (⟨S100000x1, .f32⟩ : BufTy).Contents (Elt F)),
    binary main_v36 main_v42 main_v43 (Host.divf : (⟨S100000x1, .f32⟩ : BufTy).Contents (Elt F) → (⟨S100000x1, .f32⟩ : BufTy).Contents (Elt F) → (⟨S100000x1, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x1, .f32⟩) main_call0_v0) (broadcastInDim S100000x1 ![] bcast_S_S100000x1),
    TRef.binary (TRef.of (T := ⟨S100000x1, .f32⟩) main_v43) (TRef.of (T := ⟨S100000x1, .f32⟩) main_call0_v0) (TRef.of (T := ⟨S100000x1, .f32⟩) main_v44) maximumf,
    binary main_v44 main_arg4 main_v45 ((fun l r => Host.dotGeneral dot_S100000x1_S1x64_S100000x64_1_0_0_1_n_n none l r) : (⟨S100000x1, .f32⟩ : BufTy).Contents (Elt F) → (⟨S1x64, .f32⟩ : BufTy).Contents (Elt F) → (⟨S100000x64, .f32⟩ : BufTy).Contents (Elt F)),
    unary main_arg5 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v6 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v6 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v6 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    nullary main_c_11 (constantI S_ 32 0#32),
    unary main_c_11 main_v56 (broadcastInDim S3300000 ![] bcast_S_S3300000 : (⟨S_, .i32⟩ : BufTy).Contents (Elt F) → (⟨S3300000, .i32⟩ : BufTy).Contents (Elt F)),
    binary main_v3 main_v56 main_v57 (cmpi .slt : (⟨S3300000, .i32⟩ : BufTy).Contents (Elt F) → (⟨S3300000, .i32⟩ : BufTy).Contents (Elt F) → (⟨S3300000, .i1⟩ : BufTy).Contents (Elt F)),
    nullary main_c_12 (constantI S_ 32 100000#32),
    unary main_c_12 main_v58 (broadcastInDim S3300000 ![] bcast_S_S3300000 : (⟨S_, .i32⟩ : BufTy).Contents (Elt F) → (⟨S3300000, .i32⟩ : BufTy).Contents (Elt F)),
    binary main_v3 main_v58 main_v59 (addi : (⟨S3300000, .i32⟩ : BufTy).Contents (Elt F) → (⟨S3300000, .i32⟩ : BufTy).Contents (Elt F) → (⟨S3300000, .i32⟩ : BufTy).Contents (Elt F)),
    ternary main_v57 main_v59 main_v3 main_v60 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v60 main_v61 (broadcastInDim S3300000x1 ![0] bcast_S3300000_S3300000x1_0 : (⟨S3300000, .i32⟩ : BufTy).Contents (Elt F) → (⟨S3300000x1, .i32⟩ : BufTy).Contents (Elt F)),
    binary main_v48 main_v61 main_v62 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    binary main_v55 main_v62 main_v63 (mulf : (⟨S3300000x64, .f32⟩ : BufTy).Contents (Elt F) → (⟨S3300000x64, .f32⟩ : BufTy).Contents (Elt F) → (⟨S3300000x64, .f32⟩ : BufTy).Contents (Elt F)),
    nullary main_cst_13 (constant S_ .f32 0x00000000#32),
    binary main_v63 main_cst_13 main_v64 ((fun x v => Host.reduceAdd x v reducesTo_S3300000x64_S3300000_d1 h_S_) : (⟨S3300000x64, .f32⟩ : BufTy).Contents (Elt F) → (⟨S_, .f32⟩ : BufTy).Contents (Elt F) → (⟨S3300000, .f32⟩ : BufTy).Contents (Elt F)),
    unary main_v64 main_v65 (broadcastInDim S3300000x1 ![0] bcast_S3300000_S3300000x1_0 : (⟨S3300000, .f32⟩ : BufTy).Contents (Elt F) → (⟨S3300000x1, .f32⟩ : BufTy).Contents (Elt F)),
    unary main_v65 main_v66 (Host.negf : (⟨S3300000x1, .f32⟩ : BufTy).Contents (Elt F) → (⟨S3300000x1, .f32⟩ : BufTy).Contents (Elt F)),
    unary main_v66 main_v67 (Host.exp : (⟨S3300000x1, .f32⟩ : BufTy).Contents (Elt F) → (⟨S3300000x1, .f32⟩ : BufTy).Contents (Elt F)),
    nullary main_cst_14 (constant S_ .f32 0x3F800000#32),
    unary main_cst_14 main_v68 (broadcastInDim S3300000x1 ![] bcast_S_S3300000x1 : (⟨S_, .f32⟩ : BufTy).Contents (Elt F) → (⟨S3300000x1, .f32⟩ : BufTy).Contents (Elt F)),
    binary main_v68 main_v67 main_v69 (addf : (⟨S3300000x1, .f32⟩ : BufTy).Contents (Elt F) → (⟨S3300000x1, .f32⟩ : BufTy).Contents (Elt F) → (⟨S3300000x1, .f32⟩ : BufTy).Contents (Elt F)),
    nullary main_cst_15 (constant S_ .f32 0x3F800000#32),
    unary main_cst_15 main_v70 (broadcastInDim S3300000x1 ![] bcast_S_S3300000x1 : (⟨S_, .f32⟩ : BufTy).Contents (Elt F) → (⟨S3300000x1, .f32⟩ : BufTy).Contents (Elt F)),
    binary main_v70 main_v69 main_v71 (Host.divf : (⟨S3300000x1, .f32⟩ : BufTy).Contents (Elt F) → (⟨S3300000x1, .f32⟩ : BufTy).Contents (Elt F) → (⟨S3300000x1, .f32⟩ : BufTy).Contents (Elt F)),
    nullary main_cst_16 (constant S_ .f32 0x00000000#32),
    unary main_cst_16 main_v72 (broadcastInDim S100000x1 ![] bcast_S_S100000x1 : (⟨S_, .f32⟩ : BufTy).Contents (Elt F) → (⟨S100000x1, .f32⟩ : BufTy).Contents (Elt F)),
    unary main_v6 main_v73 (broadcastInDim S3300000x1 ![0] bcast_S3300000_S3300000x1_0 : (⟨S3300000, .i32⟩ : BufTy).Contents (Elt F) → (⟨S3300000x1, .i32⟩ : BufTy).Contents (Elt F)),
    ternary main_v72 main_v73 main_v71 main_v74 ((fun x i u => Host.scatterAdd scatter_S100000x1_S3300000x1_S3300000x1_1_0_0_1 x i u) : (⟨S100000x1, .f32⟩ : BufTy).Contents (Elt F) → (⟨S3300000x1, .i32⟩ : BufTy).Contents (Elt F) → (⟨S3300000x1, .f32⟩ : BufTy).Contents (Elt F) → (⟨S100000x1, .f32⟩ : BufTy).Contents (Elt F)),
    nullary main_cst_17 (constant S_ .f32 0x3F800000#32),
    unary main_cst_17 main_v75 (broadcastInDim S3300000x1 ![] bcast_S_S3300000x1 : (⟨S_, .f32⟩ : BufTy).Contents (Elt F) → (⟨S3300000x1, .f32⟩ : BufTy).Contents (Elt F)),
    nullary main_cst_18 (constant S_ .f32 0x00000000#32),
    unary main_cst_18 main_v76 (broadcastInDim S100000x1 ![] bcast_S_S100000x1 : (⟨S_, .f32⟩ : BufTy).Contents (Elt F) → (⟨S100000x1, .f32⟩ : BufTy).Contents (Elt F)),
    unary main_v6 main_v77 (broadcastInDim S3300000x1 ![0] bcast_S3300000_S3300000x1_0 : (⟨S3300000, .i32⟩ : BufTy).Contents (Elt F) → (⟨S3300000x1, .i32⟩ : BufTy).Contents (Elt F)),
    ternary main_v76 main_v77 main_v75 main_v78 ((fun x i u => Host.scatterAdd scatter_S100000x1_S3300000x1_S3300000x1_1_0_0_1 x i u) : (⟨S100000x1, .f32⟩ : BufTy).Contents (Elt F) → (⟨S3300000x1, .i32⟩ : BufTy).Contents (Elt F) → (⟨S3300000x1, .f32⟩ : BufTy).Contents (Elt F) → (⟨S100000x1, .f32⟩ : BufTy).Contents (Elt F)),
    nullary main_cst_19 (constant S_ .f32 0x3F800000#32),
    unary main_cst_19 main_v79 (broadcastInDim S100000x1 ![] bcast_S_S100000x1 : (⟨S_, .f32⟩ : BufTy).Contents (Elt F) → (⟨S100000x1, .f32⟩ : BufTy).Contents (Elt F)),
    binary main_v78 main_v79 main_v80 (maximumf : (⟨S100000x1, .f32⟩ : BufTy).Contents (Elt F) → (⟨S100000x1, .f32⟩ : BufTy).Contents (Elt F) → (⟨S100000x1, .f32⟩ : BufTy).Contents (Elt F)),
    binary main_v74 main_v80 main_v81 (Host.divf : (⟨S100000x1, .f32⟩ : BufTy).Contents (Elt F) → (⟨S100000x1, .f32⟩ : BufTy).Contents (Elt F) → (⟨S100000x1, .f32⟩ : BufTy).Contents (Elt F)),
    TRef.nullary (TRef.of (T := ⟨S_, .f32⟩) main_call1_cst) (constant S_ .f32 0xFF800000#32),
    TRef.binary (TRef.of (T := ⟨S100000x1, .f32⟩) main_v81) (TRef.of (T := ⟨S_, .f32⟩) main_call1_cst) (TRef.of (T := ⟨S100000, .f32⟩) main_call1_v0) (fun x v => Host.reduce FloatOps.maximumf x v reducesTo_S100000x1_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.binary (TRef.of (T := ⟨S100000x1, .f32⟩) main_v81) (TRef.of (T := ⟨S100000x1, .f32⟩) main_call1_v3) (TRef.of (T := ⟨S100000x1, .f32⟩) main_call1_v4) subf,
    TRef.unary (TRef.of (T := ⟨S100000x1, .f32⟩) main_call1_v4) (TRef.of (T := ⟨S100000x1, .f32⟩) main_call1_v5) Host.exp,
    TRef.nullary (TRef.of (T := ⟨S_, .f32⟩) main_call1_cst_1) (constant S_ .f32 0x00000000#32),
    TRef.binary (TRef.of (T := ⟨S100000x1, .f32⟩) main_call1_v5) (TRef.of (T := ⟨S_, .f32⟩) main_call1_cst_1) (TRef.of (T := ⟨S100000, .f32⟩) main_call1_v6) (fun x v => Host.reduceAdd x v reducesTo_S100000x1_S100000_d1 h_S_),
    TRef.unary (TRef.of (T := ⟨S100000, .f32⟩) main_call1_v6) (TRef.of (T := ⟨S100000x1, .f32⟩) main_call1_v7) (broadcastInDim S100000x1 ![0] bcast_S100000_S100000x1_0),
    TRef.unary (TRef.of (T := ⟨S100000x1, .f32⟩) main_call1_v7) (TRef.of (T := ⟨S100000x1, .f32⟩) main_call1_v8) Host.log,
    TRef.binary (TRef.of (T := ⟨S100000x1, .f32⟩) main_call1_v4) (TRef.of (T := ⟨S100000x1, .f32⟩) main_call1_v8) (TRef.of (T := ⟨S100000x1, .f32⟩) main_v82) subf ]

/-- The whole line is the first 84 operations followed by the last 35. -/
theorem ops_split : (ops : List (HloOp τ sig (Elt F))) = opsHead ++ opsTail := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., binary_bufs_sub .., nullary_bufs_sub .., binary_bufs_sub .., nullary_bufs_sub .., unary_bufs_sub .., binary_bufs_sub .., unary_bufs_sub .., binary_bufs_sub .., unary_bufs_sub .., nullary_bufs_sub .., binary_bufs_sub .., unary_bufs_sub .., unary_bufs_sub .., binary_bufs_sub ..⟩

/-- The per-edge messages from the inner products: 1 / (1 + exp(-z)). -/
def messages (Z : FVec F S3300000x1 .f32) : FVec F S3300000x1 .f32 :=
  Host.divf (broadcastInDim S3300000x1 ![] bcast_S_S3300000x1 (constant S_ .f32 0x3F800000#32))
    (addf (broadcastInDim S3300000x1 ![] bcast_S_S3300000x1 (constant S_ .f32 0x3F800000#32)) (Host.exp (Host.negf Z)))

/-- The scatter-mean over target nodes: the messages scattered into zeros, over the larger of the edge count and one. -/
def scatterMean (Z : FVec F S3300000x1 .f32) (I : IVec S3300000 32) : FVec F S100000x1 .f32 :=
  Host.divf
    (Host.scatterAdd scatter_S100000x1_S3300000x1_S3300000x1_1_0_0_1
      (broadcastInDim S100000x1 ![] bcast_S_S100000x1 (constant S_ .f32 0x00000000#32))
      (broadcastInDim S3300000x1 ![0] bcast_S3300000_S3300000x1_0 I) (messages Z))
    (maximumf
      (Host.scatterAdd scatter_S100000x1_S3300000x1_S3300000x1_1_0_0_1
        (broadcastInDim S100000x1 ![] bcast_S_S100000x1 (constant S_ .f32 0x00000000#32))
        (broadcastInDim S3300000x1 ![0] bcast_S3300000_S3300000x1_0 I)
        (broadcastInDim S3300000x1 ![] bcast_S_S3300000x1 (constant S_ .f32 0x3F800000#32)))
      (broadcastInDim S100000x1 ![] bcast_S_S100000x1 (constant S_ .f32 0x3F800000#32)))

/-- The result: the log-softmax of the scatter-mean along its unit axis. -/
def result (Z : FVec F S3300000x1 .f32) (I : IVec S3300000 32) : FVec F S100000x1 .f32 :=
  logSoftmaxUnit (n := 100000) reducesTo_S100000x1_S100000_d1 h_S_ bcast_S_S100000 bcast_S100000_S100000x1_0 (scatterMean Z I)

attribute [local irreducible] Host.reduce Host.reduceAdd Host.scatterAdd in
set_option maxRecDepth 8192 in
set_option maxHeartbeats 4000000 in
/-- The last 35 operations, run from any contents `V`, leave the result buffer at `result` of `V`'s inner products and
    target indices: the fold unrolled, each operation's result read at its own buffer, by computation. The reductions
    and the scatter stay folded meanwhile (the equation never looks inside them). -/
theorem tail_eq (V : Valuation τ sig (Elt F)) :
    after opsTail V (Proc.devRef .tc main_v82) = result (V (Proc.devRef .tc main_v65)) (V (Proc.devRef .tc main_v6)) := by
  simp only [after_cons, after_nil]
  rfl

set_option maxRecDepth 65536 in
set_option maxHeartbeats 47600000 in
/-- On every device, from any memory with zero counters: every weakly fair execution of @main terminates with the
    result at `result` of the inner products and target indices the first 84 operations leave, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82)
        = result (after opsHead (launchContents m c) (Proc.devRef .tc main_v65)) (after opsHead (launchContents m c) (Proc.devRef .tc main_v6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v82).trans (by
        rw [ops_split, StableHlo.after_append]
        exact tail_eq _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  The reference program's result is zero everywhere.

  The result is the log-softmax, along an axis of extent one, of the second layer's scatter-mean s / max(cnt, 1).
  A per-edge message 1 / (1 + exp(-z)) is the logistic function of the inner product z, a real number whatever z is;
  so s, the accumulating scatter of the messages into zeros, is an array of reals, cnt likewise, max(cnt, 1) is a
  positive real, and the quotient is real. The log-softmax of a column of reals along its unit axis is zero.
-/
import proofs.«128371_j22909355557151_1_alg».proof.Proof.RefRun
import proofs.«128371_j22909355557151_1_alg».proof.Proof.LibRealHostOps
import Idealize.ShloMosaic.Lib.IdealHost

noncomputable section

namespace Cert.ReferenceIdeal.RefValue

open Cert.ReferenceIdeal Cert.ReferenceIdeal.Gen Idealize.ShloMosaic
open Cert.Lib.UnitAxis Cert.Lib.RealEntries Cert.ReferenceIdeal.RefRun

/-- A message is the logistic function of the inner product: a real number. -/
theorem message_real (Z : FVec Ideal S3300000x1 .f32) (j : S3300000x1.Idx) : IsReal (messages Z j) := by
  unfold messages
  exact isReal_hostLogistic _ _ Z (fun k => bcast_one_apply _ k) (fun k => bcast_one_apply _ k) j

/-- The scatter-mean holds reals: a real sum over a positive real count. -/
theorem scatterMean_real (Z : FVec Ideal S3300000x1 .f32) (I : IVec S3300000 32) (i : S100000x1.Idx) :
    IsReal (scatterMean Z I i) := by
  unfold scatterMean
  refine isReal_hostDivf _ _ i ?_ ?_
  · exact isReal_scatterAdd _ _ _ _ (fun k => isReal_bcast_zero _ k) (fun k => message_real Z k) i
  · refine isPosReal_maximumf_one _ _ (fun k => ?_) (fun k => bcast_one_apply _ k) i
    exact isReal_scatterAdd _ _ _ _ (fun k => isReal_bcast_zero _ k) (fun k => isReal_bcast_one _ k) k

/-- THE REFERENCE'S RESULT: zero everywhere, whatever the inner products and the indices. -/
theorem result_zero (Z : FVec Ideal S3300000x1 .f32) (I : IVec S3300000 32) :
    result (F := Ideal) Z I = fun _ => (0 : EReal) := by
  unfold result
  exact logSoftmaxUnit_eq_zero _ (by decide) _ _ _ _ (scatterMean_real Z I)

end Cert.ReferenceIdeal.RefValue

end
-- ==== Proof.lean ====
/-
  The claim: the three programs run, the idealized kernel is the kernel's idealization, and the idealized kernel and
  the idealized reference end with equal results.

  Both programs finish with a log-softmax along an axis of extent ONE. On a column of real numbers that is zero
  everywhere: the row maximum is the entry itself, the shifted entry is x - x = 0, and log(exp 0) = 0. What both
  programs feed it is a scatter-mean of per-edge messages, and a message — the logistic function of an inner product —
  is a real number whatever it is given; sums of reals over a count that is at least one are real. So each program's
  result is the zero array, for every input: nothing about which rows the edges gather, or how the two programs treat
  an index outside the node range, reaches the result, and the precondition is not used.

  The frames of the two kernel programs are the generated ones; the reference's is its run with the result dropped;
  the idealization rewrote nothing, so `preserves` is trivial.
-/
import proofs.«128371_j22909355557151_1_alg».proof.Defs
import proofs.«128371_j22909355557151_1_alg».proof.Proof.Gen.Kernel
import proofs.«128371_j22909355557151_1_alg».proof.Proof.Gen.Kernel.Skeleton
import proofs.«128371_j22909355557151_1_alg».proof.Proof.Gen.Kernel.Launch
import proofs.«128371_j22909355557151_1_alg».proof.Proof.Gen.Kernel.Points
import proofs.«128371_j22909355557151_1_alg».proof.Proof.Gen.Kernel.Frame
import proofs.«128371_j22909355557151_1_alg».proof.Proof.Gen.KernelIdeal
import proofs.«128371_j22909355557151_1_alg».proof.Proof.Gen.KernelIdeal.Skeleton
import proofs.«128371_j22909355557151_1_alg».proof.Proof.Gen.KernelIdeal.Launch
import proofs.«128371_j22909355557151_1_alg».proof.Proof.Gen.KernelIdeal.Points
import proofs.«128371_j22909355557151_1_alg».proof.Proof.Gen.KernelIdeal.Frame
import proofs.«128371_j22909355557151_1_alg».proof.Proof.Gen.ReferenceIdeal
import proofs.«128371_j22909355557151_1_alg».proof.Proof.Gen.Pre_finite_inputs
import Idealize.ShloMosaic.Adequacy
import Idealize.ShloMosaic.Init

import proofs.«128371_j22909355557151_1_alg».proof.Proof.KernelRun
import proofs.«128371_j22909355557151_1_alg».proof.Proof.KernelValue
import proofs.«128371_j22909355557151_1_alg».proof.Proof.RefRun
import proofs.«128371_j22909355557151_1_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end with the zero array in the result buffer. -/
theorem algebraic : Cert.algebraic_KernelIdeal_ReferenceIdeal := by
  intro m ρ m' ρ' _ _
  refine ⟨fun c => Cert.KernelIdeal.Gen.W14 m ρ c (Proc.devRef .tc Cert.KernelIdeal.main_v60),
    Cert.KernelIdeal.ResultRun.run m ρ, ?_⟩
  refine (θ_run Cert.ReferenceIdeal.defs _ _).mono (fun _ h c => ⟨(h c).1.trans ?_, (h c).2⟩)
    (Cert.ReferenceIdeal.RefRun.run (F := Ideal) m' ρ')
  exact (Cert.ReferenceIdeal.RefValue.result_zero _ _).trans (Cert.KernelIdeal.ResultValue.result_zero m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
